-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S2x6400000 : Shape := ⟨2, ![2, 6400000]⟩
abbrev S6400000 : Shape := ⟨1, ![6400000]⟩
abbrev S200000x32 : Shape := ⟨2, ![200000, 32]⟩
abbrev S2x1x288x32 : Shape := ⟨4, ![2, 1, 288, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S6400000 : S_.BroadcastsInDim S6400000 (![] : Fin 0 → Fin S6400000.rank)
  reducesTo_S6400000_S_d0 : S6400000.ReducesTo [0] S_
  bcast_S_S200000x32 : S_.BroadcastsInDim S200000x32 (![] : Fin 0 → Fin S200000x32.rank)
  reducesTo_S200000x32_S_d0_1 : S200000x32.ReducesTo [0, 1] S_
  bcast_S_S2x1x288x32 : S_.BroadcastsInDim S2x1x288x32 (![] : Fin 0 → Fin S2x1x288x32.rank)
  reducesTo_S2x1x288x32_S_d0_1_2_3 : S2x1x288x32.ReducesTo [0, 1, 2, 3] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S2x1x288x32 .f32) (main_arg9 : FVec F S32 .f32) (main_arg10 : FVec F S32x10 .f32) (main_arg11 : FVec F S10 .f32) (main_v33 : IVec S_ 1) : IVec S_ 1 :=
  let main_v34 : FVec F S2x1x288x32 .f32 := Host.absf main_arg8
  let main_cst_12 : FVec F S_ .f32 := constant S_ .f32 0x7F800000#32
  let main_v35 : FVec F S2x1x288x32 .f32 := broadcastInDim S2x1x288x32 ![] bcast_S_S2x1x288x32 main_cst_12
  let main_v36 : IVec S2x1x288x32 1 := cmpf .olt main_v34 main_v35
  let main_c_13 : IVec S_ 1 := constantI S_ 1 1#1
  let main_v37 : IVec S_ 1 := (fun x v => Host.reduce IntOp.andi x v reducesTo_S2x1x288x32_S_d0_1_2_3 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x10 .f32 := Host.absf main_arg10
  let main_cst_16 : FVec F S_ .f32 := constant S_ .f32 0x7F800000#32
  let main_v45 : FVec F S32x10 .f32 := broadcastInDim S32x10 ![] bcast_S_S32x10 main_cst_16
  let main_v46 : IVec S32x10 1 := cmpf .olt main_v44 main_v45
  let main_c_17 : IVec S_ 1 := constantI S_ 1 1#1
  let main_v47 : IVec S_ 1 := (fun x v => Host.reduce IntOp.andi x v reducesTo_S32x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S32 .f32) (main_arg6 : FVec F S2x1x288x32 .f32) (main_arg7 : FVec F S32 .f32) (main_arg8 : FVec F S2x1x288x32 .f32) (main_arg9 : FVec F S32 .f32) (main_arg10 : FVec F S32x10 .f32) (main_arg11 : FVec F S10 .f32) (main_v13 : IVec S_ 1) (main_v16 : IVec S2x1x288x32 1) : IVec S_ 1 :=
  let main_c_5 : IVec S_ 1 := constantI S_ 1 1#1
  let main_v17 : IVec S_ 1 := (fun x v => Host.reduce IntOp.andi x v reducesTo_S2x1x288x32_S_d0_1_2_3 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S2x1x288x32 .f32 := Host.absf main_arg6
  let main_cst_8 : FVec F S_ .f32 := constant S_ .f32 0x7F800000#32
  let main_v25 : FVec F S2x1x288x32 .f32 := broadcastInDim S2x1x288x32 ![] bcast_S_S2x1x288x32 main_cst_8
  let main_v26 : IVec S2x1x288x32 1 := cmpf .olt main_v24 main_v25
  let main_c_9 : IVec S_ 1 := constantI S_ 1 1#1
  let main_v27 : IVec S_ 1 := (fun x v => Host.reduce IntOp.andi x v reducesTo_S2x1x288x32_S_d0_1_2_3 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S200000x256 .f32) (main_arg1 : IVec S2x6400000 32) (main_arg2 : FVec F S6400000 .f32) (main_arg3 : FVec F S200000x32 .f32) (main_arg4 : FVec F S2x1x288x32 .f32) (main_arg5 : FVec F S32 .f32) (main_arg6 : FVec F S2x1x288x32 .f32) (main_arg7 : FVec F S32 .f32) (main_arg8 : FVec F S2x1x288x32 .f32) (main_arg9 : FVec F S32 .f32) (main_arg10 : FVec F S32x10 .f32) (main_arg11 : FVec F S10 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S6400000 .f32 := Host.absf main_arg2
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_v9 : FVec F S200000x32 .f32 := Host.absf main_arg3
  let main_cst_2 : FVec F S_ .f32 := constant S_ .f32 0x7F800000#32
  let main_v10 : FVec F S200000x32 .f32 := broadcastInDim S200000x32 ![] bcast_S_S200000x32 main_cst_2
  let main_v11 : IVec S200000x32 1 := cmpf .olt main_v9 main_v10
  let main_c_3 : IVec S_ 1 := constantI S_ 1 1#1
  let main_v12 : IVec S_ 1 := (fun x v => Host.reduce IntOp.andi x v reducesTo_S200000x32_S_d0_1 h_S_) main_v11 main_c_3
  let main_v13 : IVec S_ 1 := andi main_v8 main_v12
  let main_v14 : FVec F S2x1x288x32 .f32 := Host.absf main_arg4
  let main_cst_4 : FVec F S_ .f32 := constant S_ .f32 0x7F800000#32
  let main_v15 : FVec F S2x1x288x32 .f32 := broadcastInDim S2x1x288x32 ![] bcast_S_S2x1x288x32 main_cst_4
  let main_v16 : IVec S2x1x288x32 1 := cmpf .olt main_v14 main_v15
  fn_part1 (F := F) main_arg5 main_arg6 main_arg7 main_arg8 main_arg9 main_arg10 main_arg11 main_v13 main_v16
-- ==== Kernel.lean ====
abbrev S200000x256 : Shape := ⟨2, ![200000, 256]⟩
abbrev S2x6400000 : Shape := ⟨2, ![2, 6400000]⟩
abbrev S6400000 : Shape := ⟨1, ![6400000]⟩
abbrev S200000x32 : Shape := ⟨2, ![200000, 32]⟩
abbrev S2x1x288x32 : Shape := ⟨4, ![2, 1, 288, 32]⟩
abbrev S32 : Shape := ⟨1, ![32]⟩
abbrev S32x10 : Shape := ⟨2, ![32, 10]⟩
abbrev S10 : Shape := ⟨1, ![10]⟩
abbrev S1x1x288x32 : Shape := ⟨4, ![1, 1, 288, 32]⟩
abbrev S288x32 : Shape := ⟨2, ![288, 32]⟩
abbrev S288x64 : Shape := ⟨2, ![288, 64]⟩
abbrev S64 : Shape := ⟨1, ![64]⟩
abbrev S1x64 : Shape := ⟨2, ![1, 64]⟩
abbrev S1x32 : Shape := ⟨2, ![1, 32]⟩
abbrev S1x10 : Shape := ⟨2, ![1, 10]⟩
abbrev S200000x10 : Shape := ⟨2, ![200000, 10]⟩
abbrev S4000x256 : Shape := ⟨2, ![4000, 256]⟩
abbrev S4000x32 : Shape := ⟨2, ![4000, 32]⟩
abbrev S4000x10 : Shape := ⟨2, ![4000, 10]⟩
abbrev S4000x288 : Shape := ⟨2, ![4000, 288]⟩
abbrev S4000x64 : Shape := ⟨2, ![4000, 64]⟩
abbrev S4000 : Shape := ⟨1, ![4000]⟩
abbrev S4000x1 : Shape := ⟨2, ![4000, 1]⟩

abbrev nBuf : Space → Nat
  | .hbm => 37
  | .vmem => 12
  | .smem => 0
  | _ => 0

abbrev bufTy : (tb : Table) → Fin (tcTables nBuf tb) → BufTy
  | .hbm, ⟨0, _⟩ => ⟨S200000x256, .f32⟩
  | .hbm, ⟨1, _⟩ => ⟨S2x6400000, .i32⟩
  | .hbm, ⟨2, _⟩ => ⟨S6400000, .f32⟩
  | .hbm, ⟨3, _⟩ => ⟨S200000x32, .f32⟩
  | .hbm, ⟨4, _⟩ => ⟨S2x1x288x32, .f32⟩
  | .hbm, ⟨5, _⟩ => ⟨S32, .f32⟩
  | .hbm, ⟨6, _⟩ => ⟨S2x1x288x32, .f32⟩
  | .hbm, ⟨7, _⟩ => ⟨S32, .f32⟩
  | .hbm, ⟨8, _⟩ => ⟨S2x1x288x32, .f32⟩
  | .hbm, ⟨9, _⟩ => ⟨S32, .f32⟩
  | .hbm, ⟨10, _⟩ => ⟨S32x10, .f32⟩
  | .hbm, ⟨11, _⟩ => ⟨S10, .f32⟩
  | .hbm, ⟨12, _⟩ => ⟨S1x1x288x32, .f32⟩
  | .hbm, ⟨13, _⟩ => ⟨S288x32, .f32⟩
  | .hbm, ⟨14, _⟩ => ⟨S1x1x288x32, .f32⟩
  | .hbm, ⟨15, _⟩ => ⟨S288x32, .f32⟩
  | .hbm, ⟨16, _⟩ => ⟨S288x32, .f32⟩
  | .hbm, ⟨17, _⟩ => ⟨S288x32, .bf16⟩
  | .hbm, ⟨18, _⟩ => ⟨S1x1x288x32, .f32⟩
  | .hbm, ⟨19, _⟩ => ⟨S288x32, .f32⟩
  | .hbm, ⟨20, _⟩ => ⟨S1x1x288x32, .f32⟩
  | .hbm, ⟨21, _⟩ => ⟨S288x32, .f32⟩
  | .hbm, ⟨22, _⟩ => ⟨S288x32, .f32⟩
  | .hbm, ⟨23, _⟩ => ⟨S288x32, .bf16⟩
  | .hbm, ⟨24, _⟩ => ⟨S1x1x288x32, .f32⟩
  | .hbm, ⟨25, _⟩ => ⟨S288x32, .f32⟩
  | .hbm, ⟨26, _⟩ => ⟨S1x1x288x32, .f32⟩
  | .hbm, ⟨27, _⟩ => ⟨S288x32, .f32⟩
  | .hbm, ⟨28, _⟩ => ⟨S288x32, .f32⟩
  | .hbm, ⟨29, _⟩ => ⟨S288x32, .bf16⟩
  | .hbm, ⟨30, _⟩ => ⟨S288x64, .bf16⟩
  | .hbm, ⟨31, _⟩ => ⟨S64, .f32⟩
  | .hbm, ⟨32, _⟩ => ⟨S1x64, .f32⟩
  | .hbm, ⟨33, _⟩ => ⟨S1x32, .f32⟩
  | .hbm, ⟨34, _⟩ => ⟨S32x10, .bf16⟩
  | .hbm, ⟨35, _⟩ => ⟨S1x10, .f32⟩
  | .hbm, ⟨36, _⟩ => ⟨S200000x10, .f32⟩
  | .local _ .vmem, ⟨0, _⟩ => ⟨S4000x256, .f32⟩
  | .local _ .vmem, ⟨1, _⟩ => ⟨S4000x256, .f32⟩
  | .local _ .vmem, ⟨2, _⟩ => ⟨S4000x32, .f32⟩
  | .local _ .vmem, ⟨3, _⟩ => ⟨S4000x32, .f32⟩
  | .local _ .vmem, ⟨4, _⟩ => ⟨S288x64, .bf16⟩
  | .local _ .vmem, ⟨5, _⟩ => ⟨S1x64, .f32⟩
  | .local _ .vmem, ⟨6, _⟩ => ⟨S288x32, .bf16⟩
  | .local _ .vmem, ⟨7, _⟩ => ⟨S1x32, .f32⟩
  | .local _ .vmem, ⟨8, _⟩ => ⟨S32x10, .bf16⟩
  | .local _ .vmem, ⟨9, _⟩ => ⟨S1x10, .f32⟩
  | .local _ .vmem, ⟨10, _⟩ => ⟨S4000x10, .f32⟩
  | .local _ .vmem, ⟨11, _⟩ => ⟨S4000x10, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S288x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S288x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x10 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1x288x32_S1x1x288x32_0_0_0_0 : S2x1x288x32.Slices ![0, 0, 0, 0] S1x1x288x32
  shapeCasts_S1x1x288x32_S288x32 : S1x1x288x32.ShapeCasts S288x32
  slices_S2x1x288x32_S1x1x288x32_1_0_0_0 : S2x1x288x32.Slices ![1, 0, 0, 0] S1x1x288x32
  bitsLt_bf16_f32 : FTy.bits .bf16 < FTy.bits .f32
  concatenates_S288x32_S288x32_S288x64_d1 : Shape.Concatenates [S288x32, S288x32] S288x64 1
  concatenates_S32_S32_S64_d0 : Shape.Concatenates [S32, S32] S64 0
  shapeCasts_S64_S1x64 : S64.ShapeCasts S1x64
  shapeCasts_S32_S1x32 : S32.ShapeCasts S1x32
  shapeCasts_S10_S1x10 : S10.ShapeCasts S1x10
  inb_S4000x256_S4000x256_0_0 : ∀ a, (![0, 0] : Fin 2 → Nat) a + S4000x256.size a ≤ S4000x256.size a
  h_S4000x256 : 0 < S4000x256.numel
  inb_S4000x32_S4000x32_0_0 : ∀ a, (![0, 0] : Fin 2 → Nat) a + S4000x32.size a ≤ S4000x32.size a
  h_S4000x32 : 0 < S4000x32.numel
  concatenates_S4000x256_S4000x32_S4000x288_d1 : Shape.Concatenates [S4000x256, S4000x32] S4000x288 1
  inb_S288x64_S288x64_0_0 : ∀ a, (![0, 0] : Fin 2 → Nat) a + S288x64.size a ≤ S288x64.size a
  h_S288x64 : 0 < S288x64.numel
  shapeCasts_S288x64_S288x64 : S288x64.ShapeCasts S288x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  slices_S4000x64_o0_0_S4000x32 : S4000x64.Slices ![0, 0] S4000x32
  slices_S4000x64_o0_32_S4000x32 : S4000x64.Slices ![0, 32] S4000x32
  inb_S288x32_S288x32_0_0 : ∀ a, (![0, 0] : Fin 2 → Nat) a + S288x32.size a ≤ S288x32.size a
  h_S288x32 : 0 < S288x32.numel
  shapeCasts_S288x32_S288x32 : S288x32.ShapeCasts S288x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x10_S32x10_0_0 : ∀ a, (![0, 0] : Fin 2 → Nat) a + S32x10.size a ≤ S32x10.size a
  h_S32x10 : 0 < S32x10.numel
  shapeCasts_S32x10_S32x10 : S32x10.ShapeCasts S32x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4000x10 : S1x10.Broadcasts S4000x10
  reduces_S4000x10_S4000 : S4000x10.Reduces [1] S4000
  shapeCasts_S4000_S4000x1 : S4000.ShapeCasts S4000x1
  broadcasts_S4000x1_S4000x10 : S4000x1.Broadcasts S4000x10
  inb_S4000x10_S4000x10_0_0 : ∀ a, (![0, 0] : Fin 2 → Nat) a + S4000x10.size a ≤ S4000x10.size a
  h_S4000x10 : 0 < S4000x10.numel
  dot_S4000x288_S288x64_S4000x64_1_0_0_1_n_n_wf : DotDims.WF S4000x288 S288x64 S4000x64 [1] [0] [0] [1] [] []
  dot_S4000x288_S288x32_S4000x32_1_0_0_1_n_n_wf : DotDims.WF S4000x288 S288x32 S4000x32 [1] [0] [0] [1] [] []
  dot_S4000x32_S32x10_S4000x10_1_0_0_1_n_n_wf : DotDims.WF S4000x32 S32x10 S4000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S200000x32.size a
  hwx0_1 : ∀ i : grid0.Coords, EltTy.bits .f32 = 32 ∨ (Rect.block (s := S200000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S288x64.size a ≤ S288x64.size a
  hwx0_2 : ∀ i : grid0.Coords, EltTy.bits .bf16 = 32 ∨ (Rect.block (s := S288x64) S288x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S288x32.size a ≤ S288x32.size a
  hwx0_4 : ∀ i : grid0.Coords, EltTy.bits .bf16 = 32 ∨ (Rect.block (s := S288x32) S288x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x10.size a ≤ S32x10.size a
  hwx0_6 : ∀ i : grid0.Coords, EltTy.bits .bf16 = 32 ∨ (Rect.block (s := S32x10) S32x10.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10.size a ≤ S1x10.size a
  hwx0_7 : ∀ i : grid0.Coords, EltTy.bits .f32 = 32 ∨ (Rect.block (s := S1x10) S1x10.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x10.size a ≤ S200000x10.size a
  hwx0_8 : ∀ i : grid0.Coords, EltTy.bits .f32 = 32 ∨ (Rect.block (s := S200000x10) S4000x10.size (cc0_transform_8 i) (hinb0_8 i)).WholeWords (EltTy.packing .f32)

variable [Facts₀]

def dot_S4000x288_S288x64_S4000x64_1_0_0_1_n_n : DotDims S4000x288 S288x64 S4000x64 where
  lhsContracting := [1]
  rhsContracting := [0]
  lhsNonContracting := [0]
  rhsNonContracting := [1]
  lhsBatch := []
  rhsBatch := []
  wf := dot_S4000x288_S288x64_S4000x64_1_0_0_1_n_n_wf
def dot_S4000x288_S288x32_S4000x32_1_0_0_1_n_n : DotDims S4000x288 S288x32 S4000x32 where
  lhsContracting := [1]
  rhsContracting := [0]
  lhsNonContracting := [0]
  rhsNonContracting := [1]
  lhsBatch := []
  rhsBatch := []
  wf := dot_S4000x288_S288x32_S4000x32_1_0_0_1_n_n_wf
def dot_S4000x32_S32x10_S4000x10_1_0_0_1_n_n : DotDims S4000x32 S32x10 S4000x10 where
  lhsContracting := [1]
  rhsContracting := [0]
  lhsNonContracting := [0]
  rhsNonContracting := [1]
  lhsBatch := []
  rhsBatch := []
  wf := dot_S4000x32_S32x10_S4000x10_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S288x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S288x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S32x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S4000x10.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S200000x256 : Shape := ⟨2, ![200000, 256]⟩
abbrev S2x6400000 : Shape := ⟨2, ![2, 6400000]⟩
abbrev S6400000 : Shape := ⟨1, ![6400000]⟩
abbrev S200000x32 : Shape := ⟨2, ![200000, 32]⟩
abbrev S2x1x288x32 : Shape := ⟨4, ![2, 1, 288, 32]⟩
abbrev S32 : Shape := ⟨1, ![32]⟩
abbrev S32x10 : Shape := ⟨2, ![32, 10]⟩
abbrev S10 : Shape := ⟨1, ![10]⟩
abbrev S200000x288 : Shape := ⟨2, ![200000, 288]⟩
abbrev S1x1x288x32 : Shape := ⟨4, ![1, 1, 288, 32]⟩
abbrev S288x32 : Shape := ⟨2, ![288, 32]⟩
abbrev S1x32 : Shape := ⟨2, ![1, 32]⟩
abbrev S_ : Shape := ⟨0, ![]⟩
abbrev S200000x10 : Shape := ⟨2, ![200000, 10]⟩
abbrev S1x10 : Shape := ⟨2, ![1, 10]⟩
abbrev S200000 : Shape := ⟨1, ![200000]⟩
abbrev S200000x1 : Shape := ⟨2, ![200000, 1]⟩

abbrev nBuf : Space → Nat
  | .hbm => 89
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S2x6400000, .i32⟩
  | .hbm, ⟨2, _⟩ => ⟨S6400000, .f32⟩
  | .hbm, ⟨3, _⟩ => ⟨S200000x32, .f32⟩
  | .hbm, ⟨4, _⟩ => ⟨S2x1x288x32, .f32⟩
  | .hbm, ⟨5, _⟩ => ⟨S32, .f32⟩
  | .hbm, ⟨6, _⟩ => ⟨S2x1x288x32, .f32⟩
  | .hbm, ⟨7, _⟩ => ⟨S32, .f32⟩
  | .hbm, ⟨8, _⟩ => ⟨S2x1x288x32, .f32⟩
  | .hbm, ⟨9, _⟩ => ⟨S32, .f32⟩
  | .hbm, ⟨10, _⟩ => ⟨S32x10, .f32⟩
  | .hbm, ⟨11, _⟩ => ⟨S10, .f32⟩
  | .hbm, ⟨12, _⟩ => ⟨S200000x288, .f32⟩
  | .hbm, ⟨13, _⟩ => ⟨S1x1x288x32, .f32⟩
  | .hbm, ⟨14, _⟩ => ⟨S288x32, .f32⟩
  | .hbm, ⟨15, _⟩ => ⟨S200000x32, .f32⟩
  | .hbm, ⟨16, _⟩ => ⟨S1x1x288x32, .f32⟩
  | .hbm, ⟨17, _⟩ => ⟨S288x32, .f32⟩
  | .hbm, ⟨18, _⟩ => ⟨S200000x32, .f32⟩
  | .hbm, ⟨19, _⟩ => ⟨S200000x32, .f32⟩
  | .hbm, ⟨20, _⟩ => ⟨S1x32, .f32⟩
  | .hbm, ⟨21, _⟩ => ⟨S200000x32, .f32⟩
  | .hbm, ⟨22, _⟩ => ⟨S200000x32, .f32⟩
  | .hbm, ⟨23, _⟩ => ⟨S200000x32, .f32⟩
  | .hbm, ⟨24, _⟩ => ⟨S200000x32, .f32⟩
  | .hbm, ⟨25, _⟩ => ⟨S_, .f32⟩
  | .hbm, ⟨26, _⟩ => ⟨S200000x32, .f32⟩
  | .hbm, ⟨27, _⟩ => ⟨S200000x32, .f32⟩
  | .hbm, ⟨28, _⟩ => ⟨S_, .f32⟩
  | .hbm, ⟨29, _⟩ => ⟨S200000x32, .f32⟩
  | .hbm, ⟨30, _⟩ => ⟨S200000x32, .f32⟩
  | .hbm, ⟨31, _⟩ => ⟨S1x1x288x32, .f32⟩
  | .hbm, ⟨32, _⟩ => ⟨S288x32, .f32⟩
  | .hbm, ⟨33, _⟩ => ⟨S200000x32, .f32⟩
  | .hbm, ⟨34, _⟩ => ⟨S1x1x288x32, .f32⟩
  | .hbm, ⟨35, _⟩ => ⟨S288x32, .f32⟩
  | .hbm, ⟨36, _⟩ => ⟨S200000x32, .f32⟩
  | .hbm, ⟨37, _⟩ => ⟨S200000x32, .f32⟩
  | .hbm, ⟨38, _⟩ => ⟨S1x32, .f32⟩
  | .hbm, ⟨39, _⟩ => ⟨S200000x32, .f32⟩
  | .hbm, ⟨40, _⟩ => ⟨S200000x32, .f32⟩
  | .hbm, ⟨41, _⟩ => ⟨S200000x32, .f32⟩
  | .hbm, ⟨42, _⟩ => ⟨S200000x32, .f32⟩
  | .hbm, ⟨43, _⟩ => ⟨S_, .f32⟩
  | .hbm, ⟨44, _⟩ => ⟨S200000x32, .f32⟩
  | .hbm, ⟨45, _⟩ => ⟨S200000x32, .f32⟩
  | .hbm, ⟨46, _⟩ => ⟨S_, .f32⟩
  | .hbm, ⟨47, _⟩ => ⟨S200000x32, .f32⟩
  | .hbm, ⟨48, _⟩ => ⟨S200000x32, .f32⟩
  | .hbm, ⟨49, _⟩ => ⟨S200000x32, .f32⟩
  | .hbm, ⟨50, _⟩ => ⟨S200000x288, .f32⟩
  | .hbm, ⟨51, _⟩ => ⟨S1x1x288x32, .f32⟩
  | .hbm, ⟨52, _⟩ => ⟨S288x32, .f32⟩
  | .hbm, ⟨53, _⟩ => ⟨S200000x32, .f32⟩
  | .hbm, ⟨54, _⟩ => ⟨S1x1x288x32, .f32⟩
  | .hbm, ⟨55, _⟩ => ⟨S288x32, .f32⟩
  | .hbm, ⟨56, _⟩ => ⟨S200000x32, .f32⟩
  | .hbm, ⟨57, _⟩ => ⟨S200000x32, .f32⟩
  | .hbm, ⟨58, _⟩ => ⟨S1x32, .f32⟩
  | .hbm, ⟨59, _⟩ => ⟨S200000x32, .f32⟩
  | .hbm, ⟨60, _⟩ => ⟨S200000x32, .f32⟩
  | .hbm, ⟨61, _⟩ => ⟨S200000x32, .f32⟩
  | .hbm, ⟨62, _⟩ => ⟨S200000x32, .f32⟩
  | .hbm, ⟨63, _⟩ => ⟨S_, .f32⟩
  | .hbm, ⟨64, _⟩ => ⟨S200000x32, .f32⟩
  | .hbm, ⟨65, _⟩ => ⟨S200000x32, .f32⟩
  | .hbm, ⟨66, _⟩ => ⟨S200000x32, .f32⟩
  | .hbm, ⟨67, _⟩ => ⟨S200000x32, .f32⟩
  | .hbm, ⟨68, _⟩ => ⟨S_, .f32⟩
  | .hbm, ⟨69, _⟩ => ⟨S200000x32, .f32⟩
  | .hbm, ⟨70, _⟩ => ⟨S200000x32, .f32⟩
  | .hbm, ⟨71, _⟩ => ⟨S200000x10, .f32⟩
  | .hbm, ⟨72, _⟩ => ⟨S1x10, .f32⟩
  | .hbm, ⟨73, _⟩ => ⟨S200000x10, .f32⟩
  | .hbm, ⟨74, _⟩ => ⟨S200000x10, .f32⟩
  | .hbm, ⟨75, _⟩ => ⟨S_, .f32⟩
  | .hbm, ⟨76, _⟩ => ⟨S200000, .f32⟩
  | .hbm, ⟨77, _⟩ => ⟨S_, .f32⟩
  | .hbm, ⟨78, _⟩ => ⟨S200000, .f32⟩
  | .hbm, ⟨79, _⟩ => ⟨S200000, .f32⟩
  | .hbm, ⟨80, _⟩ => ⟨S200000x1, .f32⟩
  | .hbm, ⟨81, _⟩ => ⟨S200000x10, .f32⟩
  | .hbm, ⟨82, _⟩ => ⟨S200000x10, .f32⟩
  | .hbm, ⟨83, _⟩ => ⟨S200000x10, .f32⟩
  | .hbm, ⟨84, _⟩ => ⟨S_, .f32⟩
  | .hbm, ⟨85, _⟩ => ⟨S200000, .f32⟩
  | .hbm, ⟨86, _⟩ => ⟨S200000x1, .f32⟩
  | .hbm, ⟨87, _⟩ => ⟨S200000x10, .f32⟩
  | .hbm, ⟨88, _⟩ => ⟨S200000x10, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_cst : Ref sig .tc := ⟨.hbm, 68, rfl⟩
abbrev main_call0_v0 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_4 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]

class Facts₀ : Prop where
  concatenates_S200000x256_S200000x32_S200000x288_d1 : Shape.Concatenates [S200000x256, S200000x32] S200000x288 1
  slices_S2x1x288x32_S1x1x288x32_0_0_0_0 : S2x1x288x32.Slices ![0, 0, 0, 0] S1x1x288x32
  shapeCasts_S1x1x288x32_S288x32 : S1x1x288x32.ShapeCasts S288x32
  slices_S2x1x288x32_S1x1x288x32_1_0_0_0 : S2x1x288x32.Slices ![1, 0, 0, 0] S1x1x288x32
  bcast_S32_S1x32_1 : S32.BroadcastsInDim S1x32 (![1] : Fin 1 → Fin S1x32.rank)
  bcast_S1x32_S200000x32_0_1 : S1x32.BroadcastsInDim S200000x32 (![0, 1] : Fin 2 → Fin S200000x32.rank)
  bcast_S_S200000x32 : S_.BroadcastsInDim S200000x32 (![] : Fin 0 → Fin S200000x32.rank)
  bcast_S10_S1x10_1 : S10.BroadcastsInDim S1x10 (![1] : Fin 1 → Fin S1x10.rank)
  bcast_S1x10_S200000x10_0_1 : S1x10.BroadcastsInDim S200000x10 (![0, 1] : Fin 2 → Fin S200000x10.rank)
  reducesTo_S200000x10_S200000_d1 : S200000x10.ReducesTo [1] S200000
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x10_0_1 : S200000x1.BroadcastsInDim S200000x10 (![0, 1] : Fin 2 → Fin S200000x10.rank)
  dot_S200000x288_S288x32_S200000x32_1_0_0_1_n_n_wf : DotDims.WF S200000x288 S288x32 S200000x32 [1] [0] [0] [1] [] []
  dot_S200000x32_S32x10_S200000x10_1_0_0_1_n_n_wf : DotDims.WF S200000x32 S32x10 S200000x10 [1] [0] [0] [1] [] []

variable [Facts₀]

def dot_S200000x288_S288x32_S200000x32_1_0_0_1_n_n : DotDims S200000x288 S288x32 S200000x32 where
  lhsContracting := [1]
  rhsContracting := [0]
  lhsNonContracting := [0]
  rhsNonContracting := [1]
  lhsBatch := []
  rhsBatch := []
  wf := dot_S200000x288_S288x32_S200000x32_1_0_0_1_n_n_wf
def dot_S200000x32_S32x10_S200000x10_1_0_0_1_n_n : DotDims S200000x32 S32x10 S200000x10 where
  lhsContracting := [1]
  rhsContracting := [0]
  lhsNonContracting := [0]
  rhsNonContracting := [1]
  lhsBatch := []
  rhsBatch := []
  wf := dot_S200000x32_S32x10_S200000x10_1_0_0_1_n_n_wf

class Facts : Prop extends Facts₀ where

variable [Facts]
-- ==== Proof.Cell.lean ====
/-
  One step of a gated recurrent cell followed by a classifier head, row by row, on the extended reals.

  A row of 256 features `x` and a row of 32 hidden values `h` are joined into one row of 288 numbers.  Three gates are
  affine maps of such a row: the update gate `Z = σ(g_z [x|h])`, the reset gate `R = σ(g_r [x|h])` and the candidate
  `H~ = tanh(g_h [x|h·R])`.  The new hidden row is `Z·h + (1 − Z)·H~`; it is rectified, sent through a 32 × 10 linear
  layer with a bias, and the ten scores are turned into weights by a softmax shifted by the row's largest score.

  A gate's affine map comes in two spellings: one matrix product with the SUM of two weight matrices (`gateSum`), or the
  sum of two matrix products, one per matrix (`gateTwo`).  For real entries the two agree (the product distributes over
  the sum entry by entry, and a finite sum of sums splits), which makes the two spellings of the whole cell agree
  (`cell_sum_eq_two`).  The logistic function takes every extended real to a real, so the reset gate never brings an
  infinity into the candidate's input row.
-/
import Idealize.ShloMosaic.PureOps.Ideal
import Idealize.ShloMosaic.Lib.ValueIdx

noncomputable section

open scoped BigOperators

namespace Cert.Gru

open Idealize.ShloMosaic Idealize.ShloMosaic.ValueIdx

/-- The float words the programs spell: 1.0, 0.0 and −∞. -/
abbrev one : EReal := Ideal.ofBits .f32 0x3F800000#32
abbrev zero : EReal := Ideal.ofBits .f32 0x00000000#32
abbrev ninf : EReal := Ideal.ofBits .f32 0xFF800000#32

/-- A row of 256 numbers followed by a row of 32 numbers, as one row of 288. -/
def join (a : Fin 256 → EReal) (b : Fin 32 → EReal) (k : Fin 288) : EReal :=
  if h : k.val < 256 then a ⟨k.val, h⟩ else b ⟨k.val - 256, by have := k.isLt; omega⟩

/-- An affine gate with ONE weight matrix: `(Σₖ aₖ · w(k, j)) + bⱼ`. -/
def gateSum (w : Fin 288 → Fin 32 → EReal) (b : Fin 32 → EReal) (a : Fin 288 → EReal) (j : Fin 32) : EReal :=
  (∑ k : Fin 288, a k * w k j) + b j

/-- The same gate as the sum of TWO products: `(Σₖ aₖ · w₀(k, j) + Σₖ aₖ · w₁(k, j)) + bⱼ`. -/
def gateTwo (w0 w1 : Fin 288 → Fin 32 → EReal) (b : Fin 32 → EReal) (a : Fin 288 → EReal) (j : Fin 32) : EReal :=
  ((∑ k : Fin 288, a k * w0 k j) + (∑ k : Fin 288, a k * w1 k j)) + b j

/-- The softmax weight of score `c` among ten scores, shifted by their largest (the fold of `max` from −∞, and once
    more against −∞, as both programs spell it). -/
def softmax (s : Fin 10 → EReal) (c : Fin 10) : EReal :=
  Ideal.div (Ideal.exp (s c - max ninf ((Finset.univ : Finset (Fin 10)).fold max ninf s)))
    (∑ e : Fin 10, Ideal.exp (s e - max ninf ((Finset.univ : Finset (Fin 10)).fold max ninf s)))

/-- The ten scores of a row: the rectified new hidden row through the linear head. -/
def scores (Z Ht hr : Fin 32 → EReal) (wl : Fin 32 → Fin 10 → EReal) (bl : Fin 10 → EReal) (c : Fin 10) : EReal :=
  (∑ j : Fin 32, max (Z j * hr j + (one - Z j) * Ht j) zero * wl j c) + bl c

/-- The whole cell on one row, for any three gates. -/
def cell (gz gr gh : (Fin 288 → EReal) → Fin 32 → EReal) (xr : Fin 256 → EReal) (hr : Fin 32 → EReal)
    (wl : Fin 32 → Fin 10 → EReal) (bl : Fin 10 → EReal) : Fin 10 → EReal :=
  softmax (scores (fun j => Ideal.logistic (gz (join xr hr) j))
    (fun j => Ideal.tanh (gh (join xr fun j' => hr j' * Ideal.logistic (gr (join xr hr) j')) j)) hr wl bl)

/-- The logistic function of any extended real is a real number. -/
theorem logistic_real (z : EReal) : ∃ r : ℝ, Ideal.logistic z = (r : EReal) := by
  induction z using EReal.rec with
  | bot => exact ⟨0, by rw [Ideal.logistic_bot]; rfl⟩
  | coe r => exact ⟨_, Ideal.logistic_coe r⟩
  | top => exact ⟨1, by rw [Ideal.logistic_top]; rfl⟩

/-- A joined row of reals is a row of reals. -/
theorem join_real {a : Fin 256 → EReal} {b : Fin 32 → EReal} (ha : ∀ k, ∃ r : ℝ, a k = (r : EReal))
    (hb : ∀ j, ∃ r : ℝ, b j = (r : EReal)) (k : Fin 288) : ∃ r : ℝ, join a b k = (r : EReal) := by
  unfold join
  split
  · exact ha _
  · exact hb _

/-- For real entries one product with the summed matrix is the sum of the two products. -/
theorem gateSum_eq_gateTwo (w0 w1 : Fin 288 → Fin 32 → EReal) (b : Fin 32 → EReal) (a : Fin 288 → EReal)
    (ha : ∀ k, ∃ r : ℝ, a k = (r : EReal)) (h0 : ∀ k j, ∃ r : ℝ, w0 k j = (r : EReal))
    (h1 : ∀ k j, ∃ r : ℝ, w1 k j = (r : EReal)) :
    gateSum (fun k j => w0 k j + w1 k j) b a = gateTwo w0 w1 b a := by
  funext j
  unfold gateSum gateTwo
  rw [← Finset.sum_add_distrib]
  refine congrArg (· + b j) (Finset.sum_congr rfl fun k _ => ?_)
  obtain ⟨r, hr⟩ := ha k
  obtain ⟨s, hs⟩ := h0 k j
  obtain ⟨t, ht⟩ := h1 k j
  show a k * (w0 k j + w1 k j) = a k * w0 k j + a k * w1 k j
  rw [hr, hs, ht, ← EReal.coe_add, ← EReal.coe_mul, ← EReal.coe_mul, ← EReal.coe_mul, ← EReal.coe_add, mul_add]

/-- For real rows and real weights the cell with summed weight matrices is the cell with the products taken apart. -/
theorem cell_sum_eq_two (wz0 wz1 wr0 wr1 wh0 wh1 : Fin 288 → Fin 32 → EReal) (bz br bh : Fin 32 → EReal)
    (xr : Fin 256 → EReal) (hr : Fin 32 → EReal) (wl : Fin 32 → Fin 10 → EReal) (bl : Fin 10 → EReal)
    (hx : ∀ k, ∃ r : ℝ, xr k = (r : EReal)) (hh : ∀ j, ∃ r : ℝ, hr j = (r : EReal))
    (hz0 : ∀ k j, ∃ r : ℝ, wz0 k j = (r : EReal)) (hz1 : ∀ k j, ∃ r : ℝ, wz1 k j = (r : EReal))
    (hr0 : ∀ k j, ∃ r : ℝ, wr0 k j = (r : EReal)) (hr1 : ∀ k j, ∃ r : ℝ, wr1 k j = (r : EReal))
    (hh0 : ∀ k j, ∃ r : ℝ, wh0 k j = (r : EReal)) (hh1 : ∀ k j, ∃ r : ℝ, wh1 k j = (r : EReal)) :
    cell (gateSum (fun k j => wz0 k j + wz1 k j) bz) (gateSum (fun k j => wr0 k j + wr1 k j) br)
        (gateSum (fun k j => wh0 k j + wh1 k j) bh) xr hr wl bl
      = cell (gateTwo wz0 wz1 bz) (gateTwo wr0 wr1 br) (gateTwo wh0 wh1 bh) xr hr wl bl := by
  have hxh := join_real hx hh
  unfold cell
  rw [gateSum_eq_gateTwo wz0 wz1 bz _ hxh hz0 hz1, gateSum_eq_gateTwo wr0 wr1 br _ hxh hr0 hr1]
  rw [gateSum_eq_gateTwo wh0 wh1 bh _ (join_real hx fun j => ?_) hh0 hh1]
  obtain ⟨r, hr'⟩ := hh j
  obtain ⟨s, hs⟩ := logistic_real (gateTwo wr0 wr1 br (join xr hr) j)
  exact ⟨r * s, by rw [hr', hs, EReal.coe_mul]⟩

end Cert.Gru

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibRowMax.lean ====
/-
  The largest entry of each row of a matrix, read at an index — general in the extents.

  Over the extended reals the maximum of an `n × m` matrix along its second axis reads, at `p`, the fold of `max`, from the
  accumulator's value, over the entries `(p, k)` of row `p`: `max` is commutative and associative, so the order in which the
  row is folded does not matter.
-/
import Idealize.ShloMosaic.Lib.ValueIdx
import Idealize.ShloMosaic.PureOps.Ideal.Laws

noncomputable section

namespace Cert.LibRowMax

open Idealize.ShloMosaic Idealize.ShloMosaic.ValueIdx

/-- Over the extended reals the maximum of an `n × m` matrix along its second axis reads, at `p`, the fold of `max` from the
    accumulator's value over `k` of the entries `(p, k)`. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (p : Fin n) :
    multiReduction .maximumf [1] ⟨1, ![n]⟩ src acc h hφ hacc (ix1 p)
      = (Finset.univ : Finset (Fin m)).fold max (Ideal.ofBits φ acc) (fun k : Fin m => src (ix2 p k)) := by
  refine (Ideal.multiReduction_maximumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold max (Ideal.ofBits φ acc) f (Finset.univ : Finset (Fin m))) hf

end Cert.LibRowMax

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.KernelRow.lean ====
/-
  What the kernel's body computes from its blocks, read at an entry.

  The body joins a 4000 × 256 block of features and a 4000 × 32 block of hidden values into rows of 288 numbers,
  multiplies them with a 288 × 64 matrix whose left half holds the update gate's weights and whose right half the reset
  gate's, adds a bias row, cuts the two halves apart and applies the logistic function; the candidate and the head
  follow, and a softmax over each row of ten scores ends it.  Entry (p, c) of the result is the gated cell of
  Cell.lean on row p of the two blocks, with each gate's weights read from its own columns of the matrices.
-/
import proofs.«142232_j45801531244822_2_alg».proof.Proof.Gen.KernelIdeal.Skeleton
import proofs.«142232_j45801531244822_2_alg».proof.Proof.Cell
import proofs.«142232_j45801531244822_2_alg».proof.Proof.LibColumns
import proofs.«142232_j45801531244822_2_alg».proof.Proof.LibRowMax
import proofs.«142232_j45801531244822_2_alg».proof.Proof.LibConcatCols
import proofs.«142232_j45801531244822_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gru.Kern

open Cert.KernelIdeal Cert.KernelIdeal.Facts₀ Idealize.ShloMosaic Idealize.ShloMosaic.ValueIdx

/-- Column j of the left half, and of the right half, of a matrix with 64 columns. -/
abbrev lo (j : Fin 32) : Fin 64 := ⟨j.val, by have := j.isLt; omega⟩
abbrev hi (j : Fin 32) : Fin 64 := ⟨32 + j.val, by have := j.isLt; omega⟩

/-! ## The body's stages, named -/

/-- The joined rows [a | b]. -/
def joined (a : FVec Ideal S4000x256 .bf16) (b : FVec Ideal S4000x32 .bf16) : FVec Ideal S4000x288 .bf16 :=
  concatenate S4000x288 1 [⟨S4000x256, a⟩, ⟨S4000x32, b⟩] concatenates_S4000x256_S4000x32_S4000x288_d1

/-- Both gates' pre-activations, side by side. -/
def zrPre (v0 : Vec Ideal S4000x256 .f32) (v1 : Vec Ideal S4000x32 .f32) (v5 : Vec Ideal S288x64 .bf16) (v8 : Vec Ideal S1x64 .f32) :
    FVec Ideal S4000x64 .f32 :=
  addf (matmul dot_S4000x288_S288x64_S4000x64_1_0_0_1_n_n none
      (joined (truncf .bf16 (v0 : FVec Ideal S4000x256 .f32) bitsLt_bf16_f32) (truncf .bf16 (v1 : FVec Ideal S4000x32 .f32) bitsLt_bf16_f32))
      (shapeCast S288x64 v5 shapeCasts_S288x64_S288x64 : FVec Ideal S288x64 .bf16) (constant S4000x64 .f32 0x00000000#32))
    (broadcastTo S4000x64 (shapeCast S1x64 v8 shapeCasts_S1x64_S1x64 : FVec Ideal S1x64 .f32) broadcasts_S1x64_S4000x64)

def gateZ (v0 : Vec Ideal S4000x256 .f32) (v1 : Vec Ideal S4000x32 .f32) (v5 : Vec Ideal S288x64 .bf16) (v8 : Vec Ideal S1x64 .f32) :
    FVec Ideal S4000x32 .f32 :=
  logistic (extractStridedSlice S4000x32 ![0, 0] (zrPre v0 v1 v5 v8) slices_S4000x64_o0_0_S4000x32)

def gateR (v0 : Vec Ideal S4000x256 .f32) (v1 : Vec Ideal S4000x32 .f32) (v5 : Vec Ideal S288x64 .bf16) (v8 : Vec Ideal S1x64 .f32) :
    FVec Ideal S4000x32 .f32 :=
  logistic (extractStridedSlice S4000x32 ![0, 32] (zrPre v0 v1 v5 v8) slices_S4000x64_o0_32_S4000x32)

/-- The candidate hidden rows, from the reset gate. -/
def cand (v0 : Vec Ideal S4000x256 .f32) (v1 : Vec Ideal S4000x32 .f32) (R : FVec Ideal S4000x32 .f32)
    (v19 : Vec Ideal S288x32 .bf16) (v22 : Vec Ideal S1x32 .f32) : FVec Ideal S4000x32 .f32 :=
  tanh (addf (matmul dot_S4000x288_S288x32_S4000x32_1_0_0_1_n_n none
      (joined (truncf .bf16 (v0 : FVec Ideal S4000x256 .f32) bitsLt_bf16_f32) (truncf .bf16 (mulf (v1 : FVec Ideal S4000x32 .f32) R) bitsLt_bf16_f32))
      (shapeCast S288x32 v19 shapeCasts_S288x32_S288x32 : FVec Ideal S288x32 .bf16) (constant S4000x32 .f32 0x00000000#32))
    (broadcastTo S4000x32 (shapeCast S1x32 v22 shapeCasts_S1x32_S1x32 : FVec Ideal S1x32 .f32) broadcasts_S1x32_S4000x32))

/-- The rectified new hidden rows through the head's matrix. -/
def headDot (Z : FVec Ideal S4000x32 .f32) (v1 : Vec Ideal S4000x32 .f32) (Ht : FVec Ideal S4000x32 .f32) (v35 : Vec Ideal S32x10 .bf16) :
    FVec Ideal S4000x10 .f32 :=
  matmul dot_S4000x32_S32x10_S4000x10_1_0_0_1_n_n none
    (truncf .bf16 (maximumf (addf (mulf Z (v1 : FVec Ideal S4000x32 .f32)) (mulf (subf (broadcast S4000x32 (Scalar.ofBits .f32 0x3F800000#32)) Z) Ht))
      (broadcast S4000x32 (Scalar.ofBits .f32 0x00000000#32))) bitsLt_bf16_f32)
    (shapeCast S32x10 v35 shapeCasts_S32x10_S32x10 : FVec Ideal S32x10 .bf16) (constant S4000x10 .f32 0x00000000#32)

/-- The body's first payload is these stages composed. -/
theorem pay2_eq (v0 : Vec Ideal S4000x256 .f32) (v1 : Vec Ideal S4000x32 .f32) (v5 : Vec Ideal S288x64 .bf16) (v8 : Vec Ideal S1x64 .f32)
    (v19 : Vec Ideal S288x32 .bf16) (v22 : Vec Ideal S1x32 .f32) (v35 : Vec Ideal S32x10 .bf16) :
    Gen.k0_pay2 (F := Ideal) v0 v1 v5 v8 v19 v22 v35
      = headDot (gateZ v0 v1 v5 v8) v1 (cand v0 v1 (gateR v0 v1 v5 v8) v19 v22) v35 := rfl

/-! ## The matrix products' dimension numbers -/

section dims

theorem zr_l0 (i : S4000x64.Idx) (q : dot_S4000x288_S288x64_S4000x64_1_0_0_1_n_n.contr.Idx) :
    (dot_S4000x288_S288x64_S4000x64_1_0_0_1_n_n.lhsIdx i q 0).val = (i 0).val := by
  unfold DotDims.lhsIdx
  rw [dif_neg (show ¬(0 : Fin S4000x288.rank) ∈ dot_S4000x288_S288x64_S4000x64_1_0_0_1_n_n.lhsBatch by decide), dif_pos (show (0 : Fin S4000x288.rank) ∈ dot_S4000x288_S288x64_S4000x64_1_0_0_1_n_n.lhsNonContracting by decide)]
  rfl
theorem zr_r1 (i : S4000x64.Idx) (q : dot_S4000x288_S288x64_S4000x64_1_0_0_1_n_n.contr.Idx) :
    (dot_S4000x288_S288x64_S4000x64_1_0_0_1_n_n.rhsIdx i q 1).val = (i 1).val := by
  unfold DotDims.rhsIdx
  rw [dif_neg (show ¬(1 : Fin S288x64.rank) ∈ dot_S4000x288_S288x64_S4000x64_1_0_0_1_n_n.rhsBatch by decide), dif_pos (show (1 : Fin S288x64.rank) ∈ dot_S4000x288_S288x64_S4000x64_1_0_0_1_n_n.rhsNonContracting by decide)]
  rfl
theorem h_l0 (i : S4000x32.Idx) (q : dot_S4000x288_S288x32_S4000x32_1_0_0_1_n_n.contr.Idx) :
    (dot_S4000x288_S288x32_S4000x32_1_0_0_1_n_n.lhsIdx i q 0).val = (i 0).val := by
  unfold DotDims.lhsIdx
  rw [dif_neg (show ¬(0 : Fin S4000x288.rank) ∈ dot_S4000x288_S288x32_S4000x32_1_0_0_1_n_n.lhsBatch by decide), dif_pos (show (0 : Fin S4000x288.rank) ∈ dot_S4000x288_S288x32_S4000x32_1_0_0_1_n_n.lhsNonContracting by decide)]
  rfl
theorem h_r1 (i : S4000x32.Idx) (q : dot_S4000x288_S288x32_S4000x32_1_0_0_1_n_n.contr.Idx) :
    (dot_S4000x288_S288x32_S4000x32_1_0_0_1_n_n.rhsIdx i q 1).val = (i 1).val := by
  unfold DotDims.rhsIdx
  rw [dif_neg (show ¬(1 : Fin S288x32.rank) ∈ dot_S4000x288_S288x32_S4000x32_1_0_0_1_n_n.rhsBatch by decide), dif_pos (show (1 : Fin S288x32.rank) ∈ dot_S4000x288_S288x32_S4000x32_1_0_0_1_n_n.rhsNonContracting by decide)]
  rfl
theorem l_l0 (i : S4000x10.Idx) (q : dot_S4000x32_S32x10_S4000x10_1_0_0_1_n_n.contr.Idx) :
    (dot_S4000x32_S32x10_S4000x10_1_0_0_1_n_n.lhsIdx i q 0).val = (i 0).val := by
  unfold DotDims.lhsIdx
  rw [dif_neg (show ¬(0 : Fin S4000x32.rank) ∈ dot_S4000x32_S32x10_S4000x10_1_0_0_1_n_n.lhsBatch by decide), dif_pos (show (0 : Fin S4000x32.rank) ∈ dot_S4000x32_S32x10_S4000x10_1_0_0_1_n_n.lhsNonContracting by decide)]
  rfl
theorem l_r1 (i : S4000x10.Idx) (q : dot_S4000x32_S32x10_S4000x10_1_0_0_1_n_n.contr.Idx) :
    (dot_S4000x32_S32x10_S4000x10_1_0_0_1_n_n.rhsIdx i q 1).val = (i 1).val := by
  unfold DotDims.rhsIdx
  rw [dif_neg (show ¬(1 : Fin S32x10.rank) ∈ dot_S4000x32_S32x10_S4000x10_1_0_0_1_n_n.rhsBatch by decide), dif_pos (show (1 : Fin S32x10.rank) ∈ dot_S4000x32_S32x10_S4000x10_1_0_0_1_n_n.rhsNonContracting by decide)]
  rfl

end dims

/-! ## Each stage at an entry -/

/-- Row p of [a | b] is row p of a followed by row p of b. -/
theorem joined_apply (a : FVec Ideal S4000x256 .bf16) (b : FVec Ideal S4000x32 .bf16) (p : Fin 4000) (k : Fin 288) :
    joined a b (ix2 p k) = join (fun k => a (ix2 p k)) (fun j => b (ix2 p j)) k := by
  unfold joined join
  split
  · next h => exact concatenate_cols_left a b _ p k ⟨k.val, h⟩ rfl
  · next h => exact concatenate_cols_right a b _ p k ⟨k.val - 256, by have := k.isLt; omega⟩ (by show k.val - 256 + 256 = k.val; omega)

/-- Entry (p, q) of the two gates' pre-activations: row p of [x | h] against column q of the matrix, plus the bias. -/
theorem zrPre_apply (v0 : Vec Ideal S4000x256 .f32) (v1 : Vec Ideal S4000x32 .f32) (v5 : Vec Ideal S288x64 .bf16) (v8 : Vec Ideal S1x64 .f32)
    (p : Fin 4000) (q : Fin 64) :
    zrPre v0 v1 v5 v8 (ix2 p q)
      = (∑ k : Fin 288, join (fun k => v0 (ix2 p k)) (fun j => v1 (ix2 p j)) k * v5 (ix2 k q)) + v8 (ix2 (0 : Fin 1) q) := by
  unfold zrPre
  rw [shapeCast_self, shapeCast_self]
  refine congrArg₂ (· + ·) ?_ (broadcastTo_1b_ab_apply _ _ p q)
  refine (Cert.PlainDot.matmul_zero_apply (φ₁ := .bf16) (φ₂ := .bf16) dot_S4000x288_S288x64_S4000x64_1_0_0_1_n_n rfl rfl zr_l0
    (fun i q => dot_S4000x288_S288x64_S4000x64_1_0_0_1_n_n.lhsIdx_val_of_single rfl i q)
    (fun i q => dot_S4000x288_S288x64_S4000x64_1_0_0_1_n_n.rhsIdx_val_of_single rfl i q) zr_r1 none _ (v5 : FVec Ideal S288x64 .bf16) p q).trans ?_
  refine Finset.sum_congr rfl fun k _ => congrArg (· * _) ?_
  exact joined_apply _ _ p k

/-- The update gate at (p, j): the logistic function of the gate read from the left half's column j. -/
theorem gateZ_apply (v0 : Vec Ideal S4000x256 .f32) (v1 : Vec Ideal S4000x32 .f32) (v5 : Vec Ideal S288x64 .bf16) (v8 : Vec Ideal S1x64 .f32)
    (p : Fin 4000) (j : Fin 32) :
    gateZ v0 v1 v5 v8 (ix2 p j)
      = Ideal.logistic (gateSum (fun k j => v5 (ix2 k (lo j))) (fun j => v8 (ix2 (0 : Fin 1) (lo j)))
          (join (fun k => v0 (ix2 p k)) (fun j => v1 (ix2 p j))) j) := by
  unfold gateZ
  show Ideal.logistic (extractStridedSlice S4000x32 ![0, 0] (zrPre v0 v1 v5 v8) slices_S4000x64_o0_0_S4000x32 (ix2 p j)) = _
  rw [slice2_axis1_apply 0 _ _ p j (lo j) (by show j.val = 0 + j.val; omega), zrPre_apply]
  rfl

/-- The reset gate at (p, j): the same from the right half. -/
theorem gateR_apply (v0 : Vec Ideal S4000x256 .f32) (v1 : Vec Ideal S4000x32 .f32) (v5 : Vec Ideal S288x64 .bf16) (v8 : Vec Ideal S1x64 .f32)
    (p : Fin 4000) (j : Fin 32) :
    gateR v0 v1 v5 v8 (ix2 p j)
      = Ideal.logistic (gateSum (fun k j => v5 (ix2 k (hi j))) (fun j => v8 (ix2 (0 : Fin 1) (hi j)))
          (join (fun k => v0 (ix2 p k)) (fun j => v1 (ix2 p j))) j) := by
  unfold gateR
  show Ideal.logistic (extractStridedSlice S4000x32 ![0, 32] (zrPre v0 v1 v5 v8) slices_S4000x64_o0_32_S4000x32 (ix2 p j)) = _
  rw [slice2_axis1_apply 32 _ _ p j (hi j) rfl, zrPre_apply]
  rfl

/-- The candidate at (p, j): tanh of the gate on row p of [x | h·R]. -/
theorem cand_apply (v0 : Vec Ideal S4000x256 .f32) (v1 : Vec Ideal S4000x32 .f32) (R : FVec Ideal S4000x32 .f32)
    (v19 : Vec Ideal S288x32 .bf16) (v22 : Vec Ideal S1x32 .f32) (p : Fin 4000) (j : Fin 32) :
    cand v0 v1 R v19 v22 (ix2 p j)
      = Ideal.tanh (gateSum (fun k j => v19 (ix2 k j)) (fun j => v22 (ix2 (0 : Fin 1) j))
          (join (fun k => v0 (ix2 p k)) (fun j' => v1 (ix2 p j') * R (ix2 p j'))) j) := by
  unfold cand
  rw [shapeCast_self, shapeCast_self]
  refine congrArg Ideal.tanh (congrArg₂ (· + ·) ?_ (broadcastTo_1b_ab_apply _ _ p j))
  refine (Cert.PlainDot.matmul_zero_apply (φ₁ := .bf16) (φ₂ := .bf16) dot_S4000x288_S288x32_S4000x32_1_0_0_1_n_n rfl rfl h_l0
    (fun i q => dot_S4000x288_S288x32_S4000x32_1_0_0_1_n_n.lhsIdx_val_of_single rfl i q)
    (fun i q => dot_S4000x288_S288x32_S4000x32_1_0_0_1_n_n.rhsIdx_val_of_single rfl i q) h_r1 none _ (v19 : FVec Ideal S288x32 .bf16) p j).trans ?_
  refine Finset.sum_congr rfl fun k _ => congrArg (· * _) ?_
  exact joined_apply _ _ p k

/-- The head's product at (p, c): the rectified new hidden row p against column c. -/
theorem headDot_apply (Z : FVec Ideal S4000x32 .f32) (v1 : Vec Ideal S4000x32 .f32) (Ht : FVec Ideal S4000x32 .f32) (v35 : Vec Ideal S32x10 .bf16)
    (p : Fin 4000) (c : Fin 10) :
    headDot Z v1 Ht v35 (ix2 p c)
      = ∑ j : Fin 32, max (Z (ix2 p j) * v1 (ix2 p j) + (one - Z (ix2 p j)) * Ht (ix2 p j)) zero * v35 (ix2 j c) := by
  unfold headDot
  rw [shapeCast_self]
  exact Cert.PlainDot.matmul_zero_apply (φ₁ := .bf16) (φ₂ := .bf16) dot_S4000x32_S32x10_S4000x10_1_0_0_1_n_n rfl rfl l_l0
    (fun i q => dot_S4000x32_S32x10_S4000x10_1_0_0_1_n_n.lhsIdx_val_of_single rfl i q)
    (fun i q => dot_S4000x32_S32x10_S4000x10_1_0_0_1_n_n.rhsIdx_val_of_single rfl i q) l_r1 none _ (v35 : FVec Ideal S32x10 .bf16) p c

/-! ## The softmax over each row of ten scores -/

/-- Each row's largest score, against −∞ once more, spread back over the row. -/
def peak (a : FVec Ideal S4000x10 .f32) : FVec Ideal S4000x10 .f32 :=
  broadcastTo S4000x10 (shapeCast S4000x1 (maximumf (broadcast S4000 (Scalar.ofBits .f32 0xFF800000#32))
    (multiReduction .maximumf [1] S4000 a 0xFF800000#32 reduces_S4000x10_S4000 (.inl rfl) rfl)) shapeCasts_S4000_S4000x1) broadcasts_S4000x1_S4000x10

/-- The row softmax as the body spells it. -/
def smax (a : FVec Ideal S4000x10 .f32) : FVec Ideal S4000x10 .f32 :=
  divf (exp (subf a (peak a)))
    (broadcastTo S4000x10 (shapeCast S4000x1 (multiReduction .add [1] S4000 (exp (subf a (peak a))) 0x00000000#32
      reduces_S4000x10_S4000 (.inl rfl) rfl) shapeCasts_S4000_S4000x1) broadcasts_S4000x1_S4000x10)

/-- The body's second payload: the softmax of the scores plus the head's bias row. -/
theorem pay1_eq (v37 : FVec Ideal S4000x10 .f32) (v38 : Vec Ideal S1x10 .f32) :
    Gen.k0_pay1 (F := Ideal) v37 v38
      = smax (addf v37 (broadcastTo S4000x10 (shapeCast S1x10 v38 shapeCasts_S1x10_S1x10 : FVec Ideal S1x10 .f32) broadcasts_S1x10_S4000x10)) := rfl

theorem peak_apply (a : FVec Ideal S4000x10 .f32) (p : Fin 4000) (e : Fin 10) :
    peak a (ix2 p e) = max ninf ((Finset.univ : Finset (Fin 10)).fold max ninf fun k => a (ix2 p k)) := by
  unfold peak
  refine (Cert.LibColumns.broadcastTo_a1_ab_apply _ _ p e).trans ((Cert.LibColumns.shapeCast_a_a1_apply _ _ p 0).trans ?_)
  exact congrArg (max ninf) (Cert.LibRowMax.rowMax_apply a 0xFF800000#32 reduces_S4000x10_S4000 (.inl rfl) rfl p)

theorem smax_apply (a : FVec Ideal S4000x10 .f32) (p : Fin 4000) (c : Fin 10) :
    smax a (ix2 p c) = softmax (fun e => a (ix2 p e)) c := by
  have hw : ∀ e : Fin 10, exp (subf a (peak a)) (ix2 p e)
      = Ideal.exp (a (ix2 p e) - max ninf ((Finset.univ : Finset (Fin 10)).fold max ninf fun k => a (ix2 p k))) :=
    fun e => congrArg (fun z => Ideal.exp (a (ix2 p e) - z)) (peak_apply a p e)
  unfold smax softmax
  refine congrArg₂ Ideal.div (hw c) ?_
  refine (Cert.LibColumns.broadcastTo_a1_ab_apply _ _ p c).trans ((Cert.LibColumns.shapeCast_a_a1_apply _ _ p 0).trans ?_)
  refine (Cert.LibColumns.rowSum_apply _ _ _ _ _ p).trans (Finset.sum_congr rfl fun e _ => hw e)

/-! ## The whole body at an entry -/

/-- Entry (p, c) of what the body stores: the gated cell on row p of the feature and hidden blocks, each gate's
    weights from its own columns of the matrices the body loaded. -/
theorem body_apply (P0 : Vec Ideal S4000x256 .f32) (P1 : Vec Ideal S4000x32 .f32) (P2 : Vec Ideal S288x64 .bf16) (P3 : Vec Ideal S1x64 .f32)
    (P4 : Vec Ideal S288x32 .bf16) (P5 : Vec Ideal S1x32 .f32) (P6 : Vec Ideal S32x10 .bf16) (P7 : Vec Ideal S1x10 .f32)
    (p : Fin 4000) (c : Fin 10) :
    Gen.k0_pay1 (F := Ideal) (Gen.k0_pay2 (F := Ideal) P0 P1 P2 P3 P4 P5 P6) P7 (ix2 p c)
      = cell (gateSum (fun k j => P2 (ix2 k (lo j))) (fun j => P3 (ix2 (0 : Fin 1) (lo j))))
          (gateSum (fun k j => P2 (ix2 k (hi j))) (fun j => P3 (ix2 (0 : Fin 1) (hi j))))
          (gateSum (fun k j => P4 (ix2 k j)) (fun j => P5 (ix2 (0 : Fin 1) j)))
          (fun k => P0 (ix2 p k)) (fun j => P1 (ix2 p j)) (fun j c => P6 (ix2 j c)) (fun c => P7 (ix2 (0 : Fin 1) c)) c := by
  rw [pay1_eq, smax_apply, pay2_eq]
  unfold cell
  refine congrFun (congrArg softmax (funext fun e => ?_)) c
  show headDot _ _ _ _ (ix2 p e) + broadcastTo S4000x10 _ broadcasts_S1x10_S4000x10 (ix2 p e) = _
  rw [broadcastTo_1b_ab_apply, shapeCast_self, headDot_apply]
  unfold scores
  refine congrArg (· + _) (Finset.sum_congr rfl fun j _ => ?_)
  rw [gateZ_apply, cand_apply]
  simp only [gateR_apply]

end Cert.Gru.Kern

end
-- ==== Proof.Net.lean ====
/-
  The network on whole arrays: every row of a 200000 × 256 feature matrix `X` and of a 200000 × 32 hidden matrix `H`
  goes through the gated cell of Cell.lean, with three stacks of two 288 × 32 weight matrices (the arrays are
  2 × 1 × 288 × 32), three bias vectors, a 32 × 10 head and its bias.  Entry (p, c) of the result is the cell's weight `c`
  on row `p`.  `netSum` sums each stack's two matrices before the product, `netTwo` takes the two products apart; for
  real features, hidden values and weights they are the same array.
-/
import proofs.«142232_j45801531244822_2_alg».proof.Proof.Cell

noncomputable section

open scoped BigOperators

namespace Cert.Gru

open Idealize.ShloMosaic Idealize.ShloMosaic.ValueIdx

/-- Matrix `b` of a stack of two 288 × 32 matrices, entry (k, j). -/
abbrev stack (W : (⟨4, ![2, 1, 288, 32]⟩ : Shape).Idx → EReal) (b : Fin 2) (k : Fin 288) (j : Fin 32) : EReal :=
  W (ix4 b (0 : Fin 1) k j)

/-- Row `p` of a matrix with `n` columns. -/
abbrev rowOf {n : Nat} (X : (⟨2, ![200000, n]⟩ : Shape).Idx → EReal) (p : Fin 200000) (k : Fin n) : EReal := X (ix2 p k)

/-- The network with each stack's two matrices summed first. -/
def netSum (X : (⟨2, ![200000, 256]⟩ : Shape).Idx → EReal) (H : (⟨2, ![200000, 32]⟩ : Shape).Idx → EReal)
    (Wz : (⟨4, ![2, 1, 288, 32]⟩ : Shape).Idx → EReal) (bz : (⟨1, ![32]⟩ : Shape).Idx → EReal)
    (Wr : (⟨4, ![2, 1, 288, 32]⟩ : Shape).Idx → EReal) (br : (⟨1, ![32]⟩ : Shape).Idx → EReal)
    (Wh : (⟨4, ![2, 1, 288, 32]⟩ : Shape).Idx → EReal) (bh : (⟨1, ![32]⟩ : Shape).Idx → EReal)
    (Wl : (⟨2, ![32, 10]⟩ : Shape).Idx → EReal) (bl : (⟨1, ![10]⟩ : Shape).Idx → EReal) :
    (⟨2, ![200000, 10]⟩ : Shape).Idx → EReal := fun i =>
  cell (gateSum (fun k j => stack Wz 0 k j + stack Wz 1 k j) (fun j => bz (ix1 j)))
    (gateSum (fun k j => stack Wr 0 k j + stack Wr 1 k j) (fun j => br (ix1 j)))
    (gateSum (fun k j => stack Wh 0 k j + stack Wh 1 k j) (fun j => bh (ix1 j)))
    (rowOf X ⟨(i 0).val, idx2_lt0 i⟩) (rowOf H ⟨(i 0).val, idx2_lt0 i⟩) (fun j c => Wl (ix2 j c)) (fun c => bl (ix1 c))
    ⟨(i 1).val, idx2_lt1 i⟩

/-- The network with the two products of each stack taken apart. -/
def netTwo (X : (⟨2, ![200000, 256]⟩ : Shape).Idx → EReal) (H : (⟨2, ![200000, 32]⟩ : Shape).Idx → EReal)
    (Wz : (⟨4, ![2, 1, 288, 32]⟩ : Shape).Idx → EReal) (bz : (⟨1, ![32]⟩ : Shape).Idx → EReal)
    (Wr : (⟨4, ![2, 1, 288, 32]⟩ : Shape).Idx → EReal) (br : (⟨1, ![32]⟩ : Shape).Idx → EReal)
    (Wh : (⟨4, ![2, 1, 288, 32]⟩ : Shape).Idx → EReal) (bh : (⟨1, ![32]⟩ : Shape).Idx → EReal)
    (Wl : (⟨2, ![32, 10]⟩ : Shape).Idx → EReal) (bl : (⟨1, ![10]⟩ : Shape).Idx → EReal) :
    (⟨2, ![200000, 10]⟩ : Shape).Idx → EReal := fun i =>
  cell (gateTwo (stack Wz 0) (stack Wz 1) (fun j => bz (ix1 j)))
    (gateTwo (stack Wr 0) (stack Wr 1) (fun j => br (ix1 j)))
    (gateTwo (stack Wh 0) (stack Wh 1) (fun j => bh (ix1 j)))
    (rowOf X ⟨(i 0).val, idx2_lt0 i⟩) (rowOf H ⟨(i 0).val, idx2_lt0 i⟩) (fun j c => Wl (ix2 j c)) (fun c => bl (ix1 c))
    ⟨(i 1).val, idx2_lt1 i⟩

/-- For real features, hidden values and gate weights the two networks are one array. -/
theorem netSum_eq_netTwo (X : (⟨2, ![200000, 256]⟩ : Shape).Idx → EReal) (H : (⟨2, ![200000, 32]⟩ : Shape).Idx → EReal)
    (Wz : (⟨4, ![2, 1, 288, 32]⟩ : Shape).Idx → EReal) (bz : (⟨1, ![32]⟩ : Shape).Idx → EReal)
    (Wr : (⟨4, ![2, 1, 288, 32]⟩ : Shape).Idx → EReal) (br : (⟨1, ![32]⟩ : Shape).Idx → EReal)
    (Wh : (⟨4, ![2, 1, 288, 32]⟩ : Shape).Idx → EReal) (bh : (⟨1, ![32]⟩ : Shape).Idx → EReal)
    (Wl : (⟨2, ![32, 10]⟩ : Shape).Idx → EReal) (bl : (⟨1, ![10]⟩ : Shape).Idx → EReal)
    (hX : ∀ i, ∃ r : ℝ, X i = (r : EReal)) (hH : ∀ i, ∃ r : ℝ, H i = (r : EReal))
    (hz : ∀ i, ∃ r : ℝ, Wz i = (r : EReal)) (hr : ∀ i, ∃ r : ℝ, Wr i = (r : EReal))
    (hh : ∀ i, ∃ r : ℝ, Wh i = (r : EReal)) :
    netSum X H Wz bz Wr br Wh bh Wl bl = netTwo X H Wz bz Wr br Wh bh Wl bl :=
  funext fun i => congrFun (cell_sum_eq_two (stack Wz 0) (stack Wz 1) (stack Wr 0) (stack Wr 1) (stack Wh 0) (stack Wh 1) _ _ _ _ _ _ _
    (fun _ => hX _) (fun _ => hH _) (fun _ _ => hz _) (fun _ _ => hz _) (fun _ _ => hr _) (fun _ _ => hr _)
    (fun _ _ => hh _) (fun _ _ => hh _)) _

end Cert.Gru

end
-- ==== Proof.LibStackedRows.lean ====
/-
  Rows and slabs of stacked parameters read at an index.

  A network's per-channel parameters arrive either as a vector of length a or as row k of an n × a stack; a program that
  wants them as a 1 × a row reshapes the vector, or cuts the one row out, flattens it and reshapes it again.  Read at
  (0, q) each of these is the parameter's entry q: a reshape keeps the row-major position, and the row cut out at offset
  k starts at row k.  Likewise slab k of an n × a × b stack, cut out and flattened to a × b, reads at (p, q) as the
  stack's entry (k, p, q).
-/
import Idealize.ShloMosaic.Lib.ValueIdx
import Idealize.ShloMosaic.Lib.ValueLayout
import Idealize.ShloMosaic.Lib.Pipeline.Value

noncomputable section

namespace Cert.StackedRows

open Idealize.ShloMosaic Idealize.ShloMosaic.ValueIdx

variable {α : Type}

/-- A vector reshaped to a 1 × a row reads at (0, q) as the vector's entry q. -/
theorem row_of_vec {a : ℕ} (x : (⟨1, ![a]⟩ : Shape).Idx → α) (h : (⟨1, ![a]⟩ : Shape).ShapeCasts ⟨2, ![1, a]⟩) (q : Fin a) :
    shapeCast ⟨2, ![1, a]⟩ x h (ix2 (0 : Fin 1) q) = x (ix1 q) := shapeCast_a_1a_apply x h 0 q

/-- Row k of an n × a stack, cut out, flattened and reshaped to a 1 × a row, reads at (0, q) as the stack's entry (k, q). -/
theorem row_of_stack {n a : ℕ} (j : ℕ) (X : (⟨2, ![n, a]⟩ : Shape).Idx → α)
    (hs : (⟨2, ![n, a]⟩ : Shape).Slices ![j, 0] ⟨2, ![1, a]⟩)
    (h1 : (⟨2, ![1, a]⟩ : Shape).ShapeCasts ⟨1, ![a]⟩) (h2 : (⟨1, ![a]⟩ : Shape).ShapeCasts ⟨2, ![1, a]⟩)
    (k : Fin n) (hk : k.val = j) (q : Fin a) :
    shapeCast ⟨2, ![1, a]⟩ (shapeCast ⟨1, ![a]⟩ (extractStridedSlice ⟨2, ![1, a]⟩ ![j, 0] X hs) h1) h2 (ix2 (0 : Fin 1) q)
      = X (ix2 k q) := by
  rw [shapeCast_a_1a_apply, shapeCast_1a_a_apply]
  exact slice2_axis0_apply j X hs (0 : Fin 1) q k (by rw [hk]; rfl)

/-- Slab k of an n × a × b stack, cut out and flattened to a × b, reads at (p, q) as the stack's entry (k, p, q). -/
theorem slab_of_stack {n a b : ℕ} (j : ℕ) (X : (⟨3, ![n, a, b]⟩ : Shape).Idx → α)
    (hs : (⟨3, ![n, a, b]⟩ : Shape).Slices ![j, 0, 0] ⟨3, ![1, a, b]⟩)
    (h1 : (⟨3, ![1, a, b]⟩ : Shape).ShapeCasts ⟨2, ![a, b]⟩) (k : Fin n) (hk : k.val = j) (p : Fin a) (q : Fin b) :
    shapeCast ⟨2, ![a, b]⟩ (extractStridedSlice ⟨3, ![1, a, b]⟩ ![j, 0, 0] X hs) h1 (ix2 p q) = X (ix3 k p q) := by
  rw [shapeCast_1ab_ab_apply]
  exact extractStridedSlice_apply _ _ _ _ _ (fun ax => by
    match ax with
    | ⟨0, _⟩ => exact hk.trans (Nat.add_zero j).symm
    | ⟨1, _⟩ => exact (Nat.zero_add _).symm
    | ⟨2, _⟩ => exact (Nat.zero_add _).symm)

end Cert.StackedRows

end
-- ==== Proof.KernelHost.lean ====
/-
  What the kernel finds in its weight and bias buffers: the host's preparation of the parameters, read at an entry.

  Before the kernel runs, each stack of two 288 × 32 weight matrices (an array 2 × 1 × 288 × 32) is cut into its two
  matrices, which are added entry by entry and narrowed (the identity on the extended reals).  The summed matrices of
  the update and reset gates are laid side by side into one 288 × 64 matrix, their bias vectors end to end into one row
  of 64; the candidate's summed matrix, its bias, the 32 × 10 head and its bias are passed on as a matrix, a row, a
  matrix and a row.  Entry by entry: column `j` of the left half is the update gate's, column `32 + j` the reset gate's.
-/
import proofs.«142232_j45801531244822_2_alg».proof.Proof.Gen.KernelIdeal.Frame
import proofs.«142232_j45801531244822_2_alg».proof.Proof.Net
import proofs.«142232_j45801531244822_2_alg».proof.Proof.LibConcatCols
import proofs.«142232_j45801531244822_2_alg».proof.Proof.LibStackedRows
import Idealize.ShloMosaic.Lib.StableHlo.Run
import Idealize.ShloMosaic.Lib.ValueLayout

set_option maxRecDepth 16384

noncomputable section

namespace Cert.Gru.Host

open Cert.KernelIdeal Cert.KernelIdeal.Gen Idealize.ShloMosaic Idealize.ShloMosaic.TcCoe
open Idealize.ShloMosaic.ValueIdx Idealize.ShloMosaic.StableHlo

/-- Column `j` of the left half of a row of 64. -/
abbrev lo (j : Fin 32) : Fin 64 := ⟨j.val, by have := j.isLt; omega⟩
/-- Column `j` of the right half of a row of 64. -/
abbrev hi (j : Fin 32) : Fin 64 := ⟨32 + j.val, by have := j.isLt; omega⟩

/-- Slab `k` of an n × 1 × a × b stack, cut out and flattened to a × b, reads at (p, q) as the stack's entry
    (k, 0, p, q): the flattening keeps the row-major position, and the slab cut out at offset `k` starts at slab `k`. -/
theorem slab_of_stack4 {α : Type} {n a b : ℕ} (j : ℕ) (X : (⟨4, ![n, 1, a, b]⟩ : Shape).Idx → α)
    (hs : (⟨4, ![n, 1, a, b]⟩ : Shape).Slices ![j, 0, 0, 0] ⟨4, ![1, 1, a, b]⟩)
    (h1 : (⟨4, ![1, 1, a, b]⟩ : Shape).ShapeCasts ⟨2, ![a, b]⟩) (k : Fin n) (hk : k.val = j) (p : Fin a) (q : Fin b) :
    shapeCast ⟨2, ![a, b]⟩ (extractStridedSlice ⟨4, ![1, 1, a, b]⟩ ![j, 0, 0, 0] X hs) h1 (ix2 p q)
      = X (ix4 k (0 : Fin 1) p q) := by
  rw [shapeCast_apply _ h1 (ix2 p q) (ix4 (0 : Fin 1) (0 : Fin 1) p q) (by
    rw [Shape.rowMajor_val_four, Shape.rowMajor_val_two]
    show ((0 * 1 + 0) * a + p.val) * b + q.val = p.val * b + q.val
    simp)]
  exact extractStridedSlice_apply _ _ _ _ _ (fun ax => by
    match ax with
    | ⟨0, _⟩ => exact hk.trans (Nat.add_zero j).symm
    | ⟨1, _⟩ => exact (Nat.zero_add _).symm
    | ⟨2, _⟩ => exact (Nat.zero_add _).symm
    | ⟨3, _⟩ => exact (Nat.zero_add _).symm)

/-- The two matrices of a stack, cut out, flattened, added and narrowed: the host's spelling of their sum. -/
def sumStack (W : FVec Ideal S2x1x288x32 .f32) : FVec Ideal S288x32 .bf16 :=
  truncf .bf16
    (addf (shapeCast S288x32 (extractStridedSlice S1x1x288x32 ![0, 0, 0, 0] W slices_S2x1x288x32_S1x1x288x32_0_0_0_0)
        shapeCasts_S1x1x288x32_S288x32)
      (shapeCast S288x32 (extractStridedSlice S1x1x288x32 ![1, 0, 0, 0] W slices_S2x1x288x32_S1x1x288x32_1_0_0_0)
        shapeCasts_S1x1x288x32_S288x32))
    bitsLt_bf16_f32

/-- Entry (k, j) of the host's sum of a stack is the sum of the two matrices' entries (k, j). -/
theorem sumStack_apply (W : FVec Ideal S2x1x288x32 .f32) (k : Fin 288) (j : Fin 32) :
    sumStack W (ix2 k j) = Cert.Gru.stack W 0 k j + Cert.Gru.stack W 1 k j := by
  show shapeCast S288x32 (extractStridedSlice S1x1x288x32 ![0, 0, 0, 0] W slices_S2x1x288x32_S1x1x288x32_0_0_0_0)
        shapeCasts_S1x1x288x32_S288x32 (ix2 k j)
      + shapeCast S288x32 (extractStridedSlice S1x1x288x32 ![1, 0, 0, 0] W slices_S2x1x288x32_S1x1x288x32_1_0_0_0)
        shapeCasts_S1x1x288x32_S288x32 (ix2 k j) = _
  rw [slab_of_stack4 0 W _ _ (0 : Fin 2) rfl k j, slab_of_stack4 1 W _ _ (1 : Fin 2) rfl k j]

variable (m : (ℓ : Loc nD τ sig) → Buf (Elt Ideal) ℓ) (c : Dev nD)

/-! ## The six prepared arrays as the host operations' terms -/

/-- The update and reset gates' summed matrices side by side. -/
theorem V18_eq : (Gen.V m c main_v18 : S288x64.Idx → EReal)
    = concatenate S288x64 1 [⟨S288x32, sumStack (m ((c : Thread nD τ).loc main_arg4))⟩,
        ⟨S288x32, sumStack (m ((c : Thread nD τ).loc main_arg6))⟩] concatenates_S288x32_S288x32_S288x64_d1 := by
  dsimp only [Gen.V, Gen.hostOps0]
  after_results
  rfl

/-- The update and reset gates' bias vectors end to end, as one row. -/
theorem V20_eq : (Gen.V m c main_v20 : S1x64.Idx → EReal)
    = shapeCast S1x64 (concatenate S64 0 [⟨S32, (m ((c : Thread nD τ).loc main_arg5) : S32.Idx → EReal)⟩,
        ⟨S32, (m ((c : Thread nD τ).loc main_arg7) : S32.Idx → EReal)⟩] concatenates_S32_S32_S64_d0) shapeCasts_S64_S1x64 := by
  dsimp only [Gen.V, Gen.hostOps0]
  after_results
  rfl

/-- The candidate's summed matrix. -/
theorem V17_eq : (Gen.V m c main_v17 : S288x32.Idx → EReal) = sumStack (m ((c : Thread nD τ).loc main_arg8)) := by
  dsimp only [Gen.V, Gen.hostOps0]
  after_results
  rfl

/-- The candidate's bias vector as a row. -/
theorem V21_eq : (Gen.V m c main_v21 : S1x32.Idx → EReal)
    = shapeCast S1x32 (m ((c : Thread nD τ).loc main_arg9) : S32.Idx → EReal) shapeCasts_S32_S1x32 := by
  dsimp only [Gen.V, Gen.hostOps0]
  after_results
  rfl

/-- The head's matrix, narrowed. -/
theorem V22_eq : (Gen.V m c main_v22 : S32x10.Idx → EReal)
    = (truncf .bf16 (m ((c : Thread nD τ).loc main_arg10) : FVec Ideal S32x10 .f32) bitsLt_bf16_f32 : FVec Ideal S32x10 .bf16) := by
  dsimp only [Gen.V, Gen.hostOps0]
  after_results

/-- The head's bias vector as a row. -/
theorem V23_eq : (Gen.V m c main_v23 : S1x10.Idx → EReal)
    = shapeCast S1x10 (m ((c : Thread nD τ).loc main_arg11) : S10.Idx → EReal) shapeCasts_S10_S1x10 := by
  dsimp only [Gen.V, Gen.hostOps0]
  after_results
  rfl

/-! ## Read at an entry -/

/-- Left half of the joined gate matrix: the update gate's two matrices summed. -/
theorem V18_lo (k : Fin 288) (j : Fin 32) :
    (Gen.V m c main_v18 : S288x64.Idx → EReal) (ix2 k (lo j))
      = Cert.Gru.stack (m ((c : Thread nD τ).loc main_arg4)) 0 k j + Cert.Gru.stack (m ((c : Thread nD τ).loc main_arg4)) 1 k j := by
  rw [V18_eq, concatenate_cols_left _ _ _ k (lo j) j rfl, sumStack_apply]

/-- Right half of the joined gate matrix: the reset gate's two matrices summed. -/
theorem V18_hi (k : Fin 288) (j : Fin 32) :
    (Gen.V m c main_v18 : S288x64.Idx → EReal) (ix2 k (hi j))
      = Cert.Gru.stack (m ((c : Thread nD τ).loc main_arg6)) 0 k j + Cert.Gru.stack (m ((c : Thread nD τ).loc main_arg6)) 1 k j := by
  rw [V18_eq, concatenate_cols_right _ _ _ k (hi j) j (Nat.add_comm _ _), sumStack_apply]

/-- Left half of the joined bias row: the update gate's bias. -/
theorem V20_lo (j : Fin 32) :
    (Gen.V m c main_v20 : S1x64.Idx → EReal) (ix2 (0 : Fin 1) (lo j))
      = (m ((c : Thread nD τ).loc main_arg5) : S32.Idx → EReal) (ix1 j) := by
  rw [V20_eq, Cert.StackedRows.row_of_vec]
  exact concatenate_pair_apply_left (t := S64) (s₁ := S32) (s₂ := S32) 0 _ _ concatenates_S32_S32_S64_d0 (ix1 (lo j)) rfl (ix1 j)
    (fun b => by match b with | ⟨0, _⟩ => rfl)

/-- Right half of the joined bias row: the reset gate's bias. -/
theorem V20_hi (j : Fin 32) :
    (Gen.V m c main_v20 : S1x64.Idx → EReal) (ix2 (0 : Fin 1) (hi j))
      = (m ((c : Thread nD τ).loc main_arg7) : S32.Idx → EReal) (ix1 j) := by
  rw [V20_eq, Cert.StackedRows.row_of_vec]
  exact concatenate_pair_apply_right (t := S64) (s₁ := S32) (s₂ := S32) 0 _ _ concatenates_S32_S32_S64_d0 (ix1 (hi j)) rfl rfl (ix1 j)
    (fun b hb => by match b with | ⟨0, _⟩ => exact absurd rfl hb) (by show j.val + 32 = 32 + j.val; omega)

/-- The candidate's matrix: its two matrices summed. -/
theorem V17_apply (k : Fin 288) (j : Fin 32) :
    (Gen.V m c main_v17 : S288x32.Idx → EReal) (ix2 k j)
      = Cert.Gru.stack (m ((c : Thread nD τ).loc main_arg8)) 0 k j + Cert.Gru.stack (m ((c : Thread nD τ).loc main_arg8)) 1 k j := by
  rw [V17_eq, sumStack_apply]

/-- The candidate's bias row. -/
theorem V21_apply (j : Fin 32) :
    (Gen.V m c main_v21 : S1x32.Idx → EReal) (ix2 (0 : Fin 1) j)
      = (m ((c : Thread nD τ).loc main_arg9) : S32.Idx → EReal) (ix1 j) := by
  rw [V21_eq, Cert.StackedRows.row_of_vec]

/-- The head's matrix. -/
theorem V22_apply (j : Fin 32) (q : Fin 10) :
    (Gen.V m c main_v22 : S32x10.Idx → EReal) (ix2 j q)
      = (m ((c : Thread nD τ).loc main_arg10) : S32x10.Idx → EReal) (ix2 j q) := by
  rw [V22_eq]
  rfl

/-- The head's bias row. -/
theorem V23_apply (q : Fin 10) :
    (Gen.V m c main_v23 : S1x10.Idx → EReal) (ix2 (0 : Fin 1) q)
      = (m ((c : Thread nD τ).loc main_arg11) : S10.Idx → EReal) (ix1 q) := by
  rw [V23_eq, Cert.StackedRows.row_of_vec]

end Cert.Gru.Host
-- ==== Proof.KernelValue.lean ====
/-
  The kernel's result array as one function of its arguments.

  The grid has 50 points; point t works on rows 4000·t … 4000·t + 3999 of the feature and hidden matrices and writes
  the same rows of the result, while the weight matrices and bias rows — arrays the host operations before the region
  assemble from the arguments — are read whole at every point.  What point t writes back is therefore block t of the
  network of Net.lean (each stack's two matrices summed), and the 50 blocks cover the 200000 rows: the result array
  is that network of the argument arrays.
-/
import proofs.«142232_j45801531244822_2_alg».proof.Proof.Gen.KernelIdeal.Value
import proofs.«142232_j45801531244822_2_alg».proof.Proof.KernelRow
import proofs.«142232_j45801531244822_2_alg».proof.Proof.KernelHost
import proofs.«142232_j45801531244822_2_alg».proof.Proof.Net

noncomputable section
namespace Cert.Gru.KValue

open Cert.KernelIdeal Cert.KernelIdeal.Gen Idealize.ShloMosaic Idealize.ShloMosaic.TcCoe Idealize.SL.Sem Idealize.ShloMosaic.ValueIdx
open Idealize.ShloMosaic.Pipeline (Dat)
open Cert.Gru.Kern (lo hi)

variable (m : (ℓ : Loc nD τ sig) → Buf (Elt Ideal) ℓ) (ρ : Dev nD → PrngReg)

/-- The body's rectangles start at the origin. -/
theorem hz : (![0, 0] : Fin 2 → Nat) = fun _ => 0 := funext fun a => by fin_cases a <;> rfl

/-- The printed index maps, decided over the 50 points: the row windows sit at block row t, the others at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The body's stored value at any entry of its block, split into the entry's row and column. -/
theorem body_at (P0 : Vec Ideal S4000x256 .f32) (P1 : Vec Ideal S4000x32 .f32) (P2 : Vec Ideal S288x64 .bf16) (P3 : Vec Ideal S1x64 .f32)
    (P4 : Vec Ideal S288x32 .bf16) (P5 : Vec Ideal S1x32 .f32) (P6 : Vec Ideal S32x10 .bf16) (P7 : Vec Ideal S1x10 .f32) (j : S4000x10.Idx) :
    Gen.k0_pay1 (F := Ideal) (Gen.k0_pay2 (F := Ideal) P0 P1 P2 P3 P4 P5 P6) P7 j
      = cell (gateSum (fun k j => P2 (ix2 k (lo j))) (fun j => P3 (ix2 (0 : Fin 1) (lo j))))
          (gateSum (fun k j => P2 (ix2 k (hi j))) (fun j => P3 (ix2 (0 : Fin 1) (hi j))))
          (gateSum (fun k j => P4 (ix2 k j)) (fun j => P5 (ix2 (0 : Fin 1) j)))
          (fun k => P0 (ix2 ⟨(j 0).val, idx2_lt0 j⟩ k)) (fun j' => P1 (ix2 ⟨(j 0).val, idx2_lt0 j⟩ j')) (fun j c => P6 (ix2 j c))
          (fun c => P7 (ix2 (0 : Fin 1) c)) ⟨(j 1).val, idx2_lt1 j⟩ := by
  obtain ⟨p, q, rfl⟩ : ∃ (p : Fin 4000) (q : Fin 10), j = ix2 p q := ⟨⟨(j 0).val, idx2_lt0 j⟩, ⟨(j 1).val, idx2_lt1 j⟩, eq_ix2 j⟩
  exact Cert.Gru.Kern.body_apply P0 P1 P2 P3 P4 P5 P6 P7 p q

/-- Entry (p, k) of the feature block at point t is entry (4000·t + p, k) of the feature matrix. -/
theorem blk0 (c : Dev nD) (t : Fin cfg0.N) (p : Fin 4000) (k : Fin 256) (h : t.val * 4000 + p.val < 200000) :
    iblk m c 0 t (ix2 p k) = m ((c : Thread nD τ).loc main_arg0) (ix2 (⟨t.val * 4000 + p.val, h⟩ : Fin 200000) k) := by
  obtain ⟨e00, e01, -⟩ := idx_facts t
  show V m c main_arg0 (((cfg0.win 0).blk t).view.emb (ix2 p k)) = _
  rw [V_main_arg0]
  congr 1
  funext a; apply Fin.ext
  match a with
  | ⟨0, _⟩ => show win0_0.index t (0 : Fin 2) * 4000 + 1 * p.val = t.val * 4000 + p.val; omega
  | ⟨1, _⟩ => show win0_0.index t (1 : Fin 2) * 256 + 1 * k.val = k.val; omega

/-- The gates' weight matrix is read whole at every point. -/
theorem blk2 (c : Dev nD) (t : Fin cfg0.N) (y : S288x64.Idx) : iblk m c 2 t y = V m c main_v18 y := by
  obtain ⟨-, -, -, -, e20, e21, -⟩ := idx_facts t
  show V m c main_v18 (((cfg0.win 2).blk t).view.emb y) = _
  congr 1
  funext a; apply Fin.ext
  match a with
  | ⟨0, _⟩ => show win0_2.index t (0 : Fin 2) * 288 + 1 * (y 0).val = (y 0).val; omega
  | ⟨1, _⟩ => show win0_2.index t (1 : Fin 2) * 64 + 1 * (y 1).val = (y 1).val; omega

/-- Entry (p, j) of the hidden block at point t is entry (4000·t + p, j) of the hidden matrix. -/
theorem blk1 (c : Dev nD) (t : Fin cfg0.N) (p : Fin 4000) (k : Fin 32) (h : t.val * 4000 + p.val < 200000) :
    iblk m c 1 t (ix2 p k) = m ((c : Thread nD τ).loc main_arg3) (ix2 (⟨t.val * 4000 + p.val, h⟩ : Fin 200000) k) := by
  obtain ⟨-, -, e10, e11, -⟩ := idx_facts t
  show V m c main_arg3 (((cfg0.win 1).blk t).view.emb (ix2 p k)) = _
  rw [V_main_arg3]
  congr 1
  funext a; apply Fin.ext
  match a with
  | ⟨0, _⟩ => show win0_1.index t (0 : Fin 2) * 4000 + 1 * p.val = t.val * 4000 + p.val; omega
  | ⟨1, _⟩ => show win0_1.index t (1 : Fin 2) * 32 + 1 * k.val = k.val; omega

/-- The other parameter arrays are read whole at every point too. -/
theorem blk3 (c : Dev nD) (t : Fin cfg0.N) (y : S1x64.Idx) : iblk m c 3 t y = V m c main_v20 y := by
  obtain ⟨-, -, -, -, -, -, e0, e1, -⟩ := idx_facts t
  show V m c main_v20 (((cfg0.win 3).blk t).view.emb y) = _
  congr 1
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem blk4 (c : Dev nD) (t : Fin cfg0.N) (y : S288x32.Idx) : iblk m c 4 t y = V m c main_v17 y := by
  obtain ⟨-, -, -, -, -, -, -, -, e0, e1, -⟩ := idx_facts t
  show V m c main_v17 (((cfg0.win 4).blk t).view.emb y) = _
  congr 1
  funext a; apply Fin.ext
  match a with
  | ⟨0, _⟩ => show win0_4.index t (0 : Fin 2) * 288 + 1 * (y 0).val = (y 0).val; omega
  | ⟨1, _⟩ => show win0_4.index t (1 : Fin 2) * 32 + 1 * (y 1).val = (y 1).val; omega

theorem blk5 (c : Dev nD) (t : Fin cfg0.N) (y : S1x32.Idx) : iblk m c 5 t y = V m c main_v21 y := by
  obtain ⟨-, -, -, -, -, -, -, -, -, -, e0, e1, -⟩ := idx_facts t
  show V m c main_v21 (((cfg0.win 5).blk t).view.emb y) = _
  congr 1
  funext a; apply Fin.ext
  match a with
  | ⟨0, _⟩ => show win0_5.index t (0 : Fin 2) * 1 + 1 * (y 0).val = (y 0).val; omega
  | ⟨1, _⟩ => show win0_5.index t (1 : Fin 2) * 32 + 1 * (y 1).val = (y 1).val; omega

theorem blk6 (c : Dev nD) (t : Fin cfg0.N) (y : S32x10.Idx) : iblk m c 6 t y = V m c main_v22 y := by
  obtain ⟨-, -, -, -, -, -, -, -, -, -, -, -, e0, e1, -⟩ := idx_facts t
  show V m c main_v22 (((cfg0.win 6).blk t).view.emb y) = _
  congr 1
  funext a; apply Fin.ext
  match a with
  | ⟨0, _⟩ => show win0_6.index t (0 : Fin 2) * 32 + 1 * (y 0).val = (y 0).val; omega
  | ⟨1, _⟩ => show win0_6.index t (1 : Fin 2) * 10 + 1 * (y 1).val = (y 1).val; omega

theorem blk7 (c : Dev nD) (t : Fin cfg0.N) (y : S1x10.Idx) : iblk m c 7 t y = V m c main_v23 y := by
  obtain ⟨-, -, -, -, -, -, -, -, -, -, -, -, -, -, e0, e1, -⟩ := idx_facts t
  show V m c main_v23 (((cfg0.win 7).blk t).view.emb y) = _
  congr 1
  funext a; apply Fin.ext
  match a with
  | ⟨0, _⟩ => show win0_7.index t (0 : Fin 2) * 1 + 1 * (y 0).val = (y 0).val; omega
  | ⟨1, _⟩ => show win0_7.index t (1 : Fin 2) * 10 + 1 * (y 1).val = (y 1).val; omega

/-- The network of the argument arrays, each stack's two matrices summed before the product. -/
def result (c : Dev nD) : S200000x10.Idx → EReal :=
  netSum (m ((c : Thread nD τ).loc main_arg0)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10)) (m ((c : Thread nD τ).loc main_arg11))

/-- Two cells agree when their gates, rows and head agree. -/
theorem cell_congr {gz gz' gr gr' gh gh' : (Fin 288 → EReal) → Fin 32 → EReal} {xr xr' : Fin 256 → EReal} {hr hr' : Fin 32 → EReal}
    {wl wl' : Fin 32 → Fin 10 → EReal} {bl bl' : Fin 10 → EReal} (c : Fin 10)
    (e1 : gz = gz') (e2 : gr = gr') (e3 : gh = gh') (e4 : xr = xr') (e5 : hr = hr') (e6 : wl = wl') (e7 : bl = bl') :
    cell gz gr gh xr hr wl bl c = cell gz' gr' gh' xr' hr' wl' bl' c := by
  subst e1 e2 e3 e4 e5 e6 e7; rfl

/-- What point t writes back is block t of the network of the argument arrays. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero hz]
  simp only [View.ld_unit_zero (S := S4000x256) hz, View.ld_unit_zero (S := S4000x32) hz, View.ld_unit_zero (S := S288x64) hz,
    View.ld_unit_zero (S := S1x64) hz, View.ld_unit_zero (S := S288x32) hz, View.ld_unit_zero (S := S1x32) hz,
    View.ld_unit_zero (S := S32x10) hz, View.ld_unit_zero (S := S1x10) hz]
  funext j
  show Gen.k0_pay1 (F := Ideal) (Gen.k0_pay2 (F := Ideal) (iblk m c 0 t) (iblk m c 1 t) (iblk m c 2 t) (iblk m c 3 t) (iblk m c 4 t) (iblk m c 5 t) (iblk m c 6 t)) (iblk m c 7 t) j = result m c (((cfg0.win 8).blk t).view.emb j)
  have ht : t.val < 50 := t.isLt
  have hj0 : (j 0).val < 4000 := (j 0).isLt
  have hj1 : (j 1).val < 10 := (j 1).isLt
  have hemb : ((cfg0.win 8).blk t).view.emb j = ix2 (⟨t.val * 4000 + (j 0).val, by omega⟩ : Fin 200000) (⟨(j 1).val, hj1⟩ : Fin 10) := by
    obtain ⟨-, -, -, -, -, -, -, -, -, -, -, -, -, -, -, -, e80, e81⟩ := idx_facts t
    funext a; apply Fin.ext
    match a with
    | ⟨0, _⟩ => show win0_8.index t (0 : Fin 2) * 4000 + 1 * (j 0).val = t.val * 4000 + (j 0).val; omega
    | ⟨1, _⟩ => show win0_8.index t (1 : Fin 2) * 10 + 1 * (j 1).val = (j 1).val; omega
  rw [hemb]
  refine (body_at (iblk m c 0 t) (iblk m c 1 t) (iblk m c 2 t) (iblk m c 3 t) (iblk m c 4 t) (iblk m c 5 t) (iblk m c 6 t) (iblk m c 7 t) j).trans ?_
  refine cell_congr _ ?_ ?_ ?_ ?_ ?_ ?_ ?_
  · exact congrArg₂ gateSum (funext fun k => funext fun j' => (blk2 m c t _).trans (Cert.Gru.Host.V18_lo m c k j'))
      (funext fun j' => (blk3 m c t _).trans (Cert.Gru.Host.V20_lo m c j'))
  · exact congrArg₂ gateSum (funext fun k => funext fun j' => (blk2 m c t _).trans (Cert.Gru.Host.V18_hi m c k j'))
      (funext fun j' => (blk3 m c t _).trans (Cert.Gru.Host.V20_hi m c j'))
  · exact congrArg₂ gateSum (funext fun k => funext fun j' => (blk4 m c t _).trans (Cert.Gru.Host.V17_apply m c k j'))
      (funext fun j' => (blk5 m c t _).trans (Cert.Gru.Host.V21_apply m c j'))
  · exact funext fun k => blk0 m c t ⟨(j 0).val, hj0⟩ k (by show t.val * 4000 + (j 0).val < 200000; omega)
  · exact funext fun k => blk1 m c t ⟨(j 0).val, hj0⟩ k (by show t.val * 4000 + (j 0).val < 200000; omega)
  · exact funext fun j' => funext fun q => (blk6 m c t _).trans (Cert.Gru.Host.V22_apply m c j' q)
  · exact funext fun q => (blk7 m c t _).trans (Cert.Gru.Host.V23_apply m c q)

/-- An entry of the result is in point t's block iff each coordinate is in the block's range on its axis. -/
theorem mem_blk (t : Fin cfg0.N) (i : S200000x10.Idx) :
    i ∈ ((cfg0.win 8).blk t).view.set ↔ ∀ a : Fin 2, win0_8.index t a * S4000x10.size a ≤ (i a).val ∧ (i a).val < win0_8.index t a * S4000x10.size a + S4000x10.size a := by
  show i ∈ ((View.whole main_v24).slice (win0_8.rect t)).set ↔ _
  rw [View.set_slice_whole, Rect.mem_set_unit]
  exact Iff.rfl

/-- Every row of the result lies in the block of the point that owns it. -/
theorem covered (i : S200000x10.Idx) :
    ∃ t : Fin cfg0.N, (cfg0.win 8).flush t = true ∧ i ∈ ((cfg0.win 8).blk t).view.set := by
  have hi0 : (i 0).val < 200000 := (i 0).isLt
  have hi1 : (i 1).val < 10 := (i 1).isLt
  have ht : (i 0).val / 4000 < 50 := by omega
  refine ⟨⟨(i 0).val / 4000, ht⟩, flush0_8 _, ?_⟩
  obtain ⟨-, -, -, -, -, -, -, -, -, -, -, -, -, -, -, -, e80, e81⟩ := idx_facts ⟨(i 0).val / 4000, ht⟩
  rw [mem_blk]
  intro a
  match a with
  | ⟨0, _⟩ =>
    show win0_8.index ⟨(i 0).val / 4000, ht⟩ (0 : Fin 2) * 4000 ≤ (i 0).val ∧ (i 0).val < win0_8.index ⟨(i 0).val / 4000, ht⟩ (0 : Fin 2) * 4000 + 4000
    rw [e80]; show (i 0).val / 4000 * 4000 ≤ (i 0).val ∧ (i 0).val < (i 0).val / 4000 * 4000 + 4000; omega
  | ⟨1, _⟩ =>
    show win0_8.index ⟨(i 0).val / 4000, ht⟩ (1 : Fin 2) * 10 ≤ (i 1).val ∧ (i 1).val < win0_8.index ⟨(i 0).val / 4000, ht⟩ (1 : Fin 2) * 10 + 10
    rw [e81]; omega

/-- The result array after the run is the network of the argument arrays. -/
theorem final (c : Dev nD) : (dats m 0 c).arrAt 8 cfg0.N = result m c :=
  (dats m 0 c).arrAt_eq_of_cover 8 (result m c) (fun t _ => flushed_eq m c t) covered

/-- The kernel's run, with its result array named. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.Gru.KValue
end
-- ==== Proof.LibHostRowMax.lean ====
/-
  The host's largest entry of each row of a matrix, read at an index — general in the extents.

  A one-operand reduction with a maximum body along the second axis of an `n × m` matrix reads, at `p`, the fold of
  `max`, from the initial value, over the entries `(p, k)` of row `p`: over the extended reals `max` is commutative and
  associative, so the order of the fold does not matter.  (The host-side twin of the vector unit's row maximum.)
-/
import Idealize.ShloMosaic.Lib.ValueIdx
import Idealize.ShloMosaic.PureOps.Ideal.Laws

noncomputable section

namespace Cert.LibHostRowMax

open Idealize.ShloMosaic Idealize.ShloMosaic.ValueIdx

/-- Over the extended reals the host's reduction by `max` of an `n × m` matrix along its second axis reads, at `p`, the
    fold of `max` from the initial value over `k` of the entries `(p, k)`. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩)
    (hu : 0 < u.numel) (p : Fin n) :
    Host.reduce FloatOps.maximumf x init h' hu (ix1 p)
      = (Finset.univ : Finset (Fin m)).fold max (init (Shape.Idx.first hu)) (fun k : Fin m => x (ix2 p k)) := by
  refine (Host.reduce_eq_fold_single FloatOps.maximumf x init h' h hu (ix1 p)).trans ?_
  have hf : (x ∘ h.lift (ix1 p)) = fun k : Fin m => x (ix2 p k) := funext fun k => congrArg x
    (funext fun c => Fin.ext (by match c with | ⟨0, _⟩ => rfl | ⟨1, _⟩ => rfl))
  exact congrArg (fun f => Finset.fold max (init (Shape.Idx.first hu)) f (Finset.univ : Finset (Fin m))) hf

end Cert.LibHostRowMax

end
-- ==== Proof.LibLayerOps.lean ====
/-
  Layers of a network as functions of whole arrays, entry by entry, on the extended reals, for any extents.

  `rowsDot x w`: rows of x against columns of w, entry (r, q) the sum over k of x (r, k) · w (k, q).
  `addRow a b` / `addVec a b`: a bias, given as a one-row matrix or as a vector, added to every row of a
  (`addRow_shapeCast`: the vector laid out as a row is the same thing). `sigm a`: the logistic function of every entry.
  `ofBits_one`: the float 1.0 denotes 1. `logistic_host`: the host's spelling 1.0 / (1.0 + exp (-z)) of the logistic
  function, in the host's divide, add, exponential and negate, is the logistic function the vector unit's one
  operation denotes. Each function comes with its value at an entry `ix2 r q` (`…_apply`, by `rfl`), and `row`, `col`,
  `eq_row_col` split an entry of an [n0, n1] array into coordinates of literal `Fin` types.
-/
import Idealize.ShloMosaic.Lib.ValueIdx
import Idealize.ShloMosaic.Lib.ValueLayout
import Idealize.ShloMosaic.PureOps.Ideal

noncomputable section

open scoped BigOperators

namespace Cert.LayerOps

open Idealize.ShloMosaic Idealize.ShloMosaic.ValueIdx

/-- The row coordinate of an entry of an [n0, n1] array, as a number below n0. -/
abbrev row {n0 n1 : Nat} (i : (⟨2, ![n0, n1]⟩ : Shape).Idx) : Fin n0 := ⟨(i 0).val, idx2_lt0 i⟩
/-- The column coordinate of an entry of an [n0, n1] array, as a number below n1. -/
abbrev col {n0 n1 : Nat} (i : (⟨2, ![n0, n1]⟩ : Shape).Idx) : Fin n1 := ⟨(i 1).val, idx2_lt1 i⟩

theorem eq_row_col {n0 n1 : Nat} (i : (⟨2, ![n0, n1]⟩ : Shape).Idx) : i = ix2 (row i) (col i) := eq_ix2 i

/-- Entry (r, q) of x · w is the sum over k of x (r, k) · w (k, q). -/
def rowsDot {n K M : Nat} (x : (⟨2, ![n, K]⟩ : Shape).Idx → EReal) (w : (⟨2, ![K, M]⟩ : Shape).Idx → EReal) :
    (⟨2, ![n, M]⟩ : Shape).Idx → EReal :=
  fun i => ∑ k : Fin K, x (ix2 (row i) k) * w (ix2 k (col i))

theorem rowsDot_apply {n K M : Nat} (x : (⟨2, ![n, K]⟩ : Shape).Idx → EReal) (w : (⟨2, ![K, M]⟩ : Shape).Idx → EReal)
    (r : Fin n) (q : Fin M) : rowsDot x w (ix2 r q) = ∑ k : Fin K, x (ix2 r k) * w (ix2 k q) := rfl

/-- Entry (r, q) of a with the bias row b added to every row is a (r, q) + b (0, q). -/
def addRow {n M : Nat} (a : (⟨2, ![n, M]⟩ : Shape).Idx → EReal) (b : (⟨2, ![1, M]⟩ : Shape).Idx → EReal) :
    (⟨2, ![n, M]⟩ : Shape).Idx → EReal :=
  fun i => a i + b (ix2 (0 : Fin 1) (col i))

theorem addRow_apply {n M : Nat} (a : (⟨2, ![n, M]⟩ : Shape).Idx → EReal) (b : (⟨2, ![1, M]⟩ : Shape).Idx → EReal)
    (r : Fin n) (q : Fin M) : addRow a b (ix2 r q) = a (ix2 r q) + b (ix2 (0 : Fin 1) q) := rfl

/-- Entry (r, q) of a with the bias vector b added to every row is a (r, q) + b (q). -/
def addVec {n M : Nat} (a : (⟨2, ![n, M]⟩ : Shape).Idx → EReal) (b : (⟨1, ![M]⟩ : Shape).Idx → EReal) :
    (⟨2, ![n, M]⟩ : Shape).Idx → EReal :=
  fun i => a i + b (ix1 (col i))

theorem addVec_apply {n M : Nat} (a : (⟨2, ![n, M]⟩ : Shape).Idx → EReal) (b : (⟨1, ![M]⟩ : Shape).Idx → EReal)
    (r : Fin n) (q : Fin M) : addVec a b (ix2 r q) = a (ix2 r q) + b (ix1 q) := rfl

/-- A bias vector laid out as a one-row matrix and added as a row is the vector added to every row. -/
theorem addRow_shapeCast {n M : Nat} (a : (⟨2, ![n, M]⟩ : Shape).Idx → EReal) (b : (⟨1, ![M]⟩ : Shape).Idx → EReal)
    (h : (⟨1, ![M]⟩ : Shape).ShapeCasts ⟨2, ![1, M]⟩) : addRow a (shapeCast ⟨2, ![1, M]⟩ b h) = addVec a b := by
  funext i
  show a i + shapeCast ⟨2, ![1, M]⟩ b h (ix2 (0 : Fin 1) (col i)) = a i + b (ix1 (col i))
  rw [shapeCast_a_1a_apply]

/-- The logistic function 1 / (1 + e^(-x)) of every entry. -/
def sigm {s : Shape} (a : s.Idx → EReal) : s.Idx → EReal := fun i => Ideal.logistic (a i)

theorem sigm_apply {s : Shape} (a : s.Idx → EReal) (i : s.Idx) : sigm a i = Ideal.logistic (a i) := rfl

/-- The float 1.0 denotes the number 1. -/
theorem ofBits_one : Ideal.ofBits .f32 0x3F800000#32 = 1 := by
  simp [Ideal.ofBits, Ideal.ieee, -EReal.coe_mul]; norm_num

/-- The host's spelling of the logistic function, 1.0 / (1.0 + exp (-z)), is the logistic function. -/
theorem logistic_host (z : EReal) :
    FloatOps.hostDivf (F := Ideal) (φ := .f32) (Ideal.ofBits .f32 0x3F800000#32)
        (FloatOps.addf (F := Ideal) (φ := .f32) (Ideal.ofBits .f32 0x3F800000#32) (FloatOps.hostUnary (F := Ideal) (φ := .f32) .exp (FloatOps.hostNegf (F := Ideal) (φ := .f32) z)))
      = Ideal.logistic z := by
  rw [ofBits_one]; rfl

end Cert.LayerOps

end
-- ==== Proof.RefNet.lean ====
/-
  The reference program, read one operation at a time, computes the gated cell of Cell.lean on every row.

  Each lemma reads one stage of the reference at row `p` and a column, in program order: the joined row [x | h], the
  two matrices of each weight stack, the bias vectors, the three gates' pre-activations (two matrix products added, plus
  the bias), the logistic gates (spelt 1.0 / (1.0 + exp (−z))), the hidden row scaled by the reset gate and the second
  joined row [x | h·R], the candidate tanh row, the new hidden row Z·h + (1 − Z)·H~ rectified against 0.0, the linear
  head, and the softmax shifted by max (−∞) (the row's largest score) with its sum started from 0.0.  The two sides are
  the same expression tree operation by operation, so no finiteness hypothesis is needed: the result array is
  `netTwo` of Net.lean entry by entry.
-/
import proofs.«142232_j45801531244822_2_alg».proof.Proof.Gen.ReferenceIdeal.Read
import proofs.«142232_j45801531244822_2_alg».proof.Proof.Net
import proofs.«142232_j45801531244822_2_alg».proof.Proof.LibConcatCols
import proofs.«142232_j45801531244822_2_alg».proof.Proof.LibHostRowMax
import proofs.«142232_j45801531244822_2_alg».proof.Proof.LibLayerOps

noncomputable section

open scoped BigOperators

namespace Cert.Gru.Ref

open Cert.ReferenceIdeal Cert.ReferenceIdeal.Gen Cert.ReferenceIdeal.Read Idealize.ShloMosaic Idealize.ShloMosaic.ValueIdx

local macro "idx2" : tactic => `(tactic| exact funext fun a => Fin.ext (by match a with | ⟨0, _⟩ => rfl | ⟨1, _⟩ => rfl))

/-- The first joined row: the 256 features of row `p` followed by its 32 hidden values. -/
theorem v0_apply (x0 : (⟨S200000x256, .f32⟩ : BufTy).Contents (Elt Ideal)) (x3 : (⟨S200000x32, .f32⟩ : BufTy).Contents (Elt Ideal)) (p : Fin 200000) (k : Fin 288) :
    val_main_v0 (F := Ideal) x0 x3 (ix2 p k) = join (rowOf x0 p) (rowOf x3 p) k := by
  unfold val_main_v0 join
  by_cases h : k.val < 256
  · rw [dif_pos h]
    exact concatenate_cols_left x0 x3 _ p k ⟨k.val, h⟩ rfl
  · rw [dif_neg h]
    exact concatenate_cols_right x0 x3 _ p k ⟨k.val - 256, by have := k.isLt; omega⟩ (by show k.val - 256 + 256 = k.val; omega)

/-! Each sliced and reshaped weight matrix is one matrix of its stack. -/

theorem v2_apply (x4 : (⟨S2x1x288x32, .f32⟩ : BufTy).Contents (Elt Ideal)) (k : Fin 288) (j : Fin 32) :
    val_main_v2 (F := Ideal) x4 (ix2 k j) = stack x4 0 k j := by
  rw [val_main_v2_apply, val_main_v1_apply]
  refine congrArg x4 (funext fun a => Fin.ext ?_)
  have hk := k.isLt
  have hj := j.isLt
  match a with
  | ⟨0, _⟩ => rfl
  | ⟨1, _⟩ => rfl
  | ⟨2, _⟩ => show (k.val * 32 + j.val) / 32 % 288 = k.val; omega
  | ⟨3, _⟩ => show (k.val * 32 + j.val) % 32 = j.val; omega

theorem v5_apply (x4 : (⟨S2x1x288x32, .f32⟩ : BufTy).Contents (Elt Ideal)) (k : Fin 288) (j : Fin 32) :
    val_main_v5 (F := Ideal) x4 (ix2 k j) = stack x4 1 k j := by
  rw [val_main_v5_apply, val_main_v4_apply]
  refine congrArg x4 (funext fun a => Fin.ext ?_)
  have hk := k.isLt
  have hj := j.isLt
  match a with
  | ⟨0, _⟩ => rfl
  | ⟨1, _⟩ => rfl
  | ⟨2, _⟩ => show (k.val * 32 + j.val) / 32 % 288 = k.val; omega
  | ⟨3, _⟩ => show (k.val * 32 + j.val) % 32 = j.val; omega

theorem v18_apply (x6 : (⟨S2x1x288x32, .f32⟩ : BufTy).Contents (Elt Ideal)) (k : Fin 288) (j : Fin 32) :
    val_main_v18 (F := Ideal) x6 (ix2 k j) = stack x6 0 k j := by
  rw [val_main_v18_apply, val_main_v17_apply]
  refine congrArg x6 (funext fun a => Fin.ext ?_)
  have hk := k.isLt
  have hj := j.isLt
  match a with
  | ⟨0, _⟩ => rfl
  | ⟨1, _⟩ => rfl
  | ⟨2, _⟩ => show (k.val * 32 + j.val) / 32 % 288 = k.val; omega
  | ⟨3, _⟩ => show (k.val * 32 + j.val) % 32 = j.val; omega

theorem v21_apply (x6 : (⟨S2x1x288x32, .f32⟩ : BufTy).Contents (Elt Ideal)) (k : Fin 288) (j : Fin 32) :
    val_main_v21 (F := Ideal) x6 (ix2 k j) = stack x6 1 k j := by
  rw [val_main_v21_apply, val_main_v20_apply]
  refine congrArg x6 (funext fun a => Fin.ext ?_)
  have hk := k.isLt
  have hj := j.isLt
  match a with
  | ⟨0, _⟩ => rfl
  | ⟨1, _⟩ => rfl
  | ⟨2, _⟩ => show (k.val * 32 + j.val) / 32 % 288 = k.val; omega
  | ⟨3, _⟩ => show (k.val * 32 + j.val) % 32 = j.val; omega

theorem v36_apply (x8 : (⟨S2x1x288x32, .f32⟩ : BufTy).Contents (Elt Ideal)) (k : Fin 288) (j : Fin 32) :
    val_main_v36 (F := Ideal) x8 (ix2 k j) = stack x8 0 k j := by
  rw [val_main_v36_apply, val_main_v35_apply]
  refine congrArg x8 (funext fun a => Fin.ext ?_)
  have hk := k.isLt
  have hj := j.isLt
  match a with
  | ⟨0, _⟩ => rfl
  | ⟨1, _⟩ => rfl
  | ⟨2, _⟩ => show (k.val * 32 + j.val) / 32 % 288 = k.val; omega
  | ⟨3, _⟩ => show (k.val * 32 + j.val) % 32 = j.val; omega

theorem v39_apply (x8 : (⟨S2x1x288x32, .f32⟩ : BufTy).Contents (Elt Ideal)) (k : Fin 288) (j : Fin 32) :
    val_main_v39 (F := Ideal) x8 (ix2 k j) = stack x8 1 k j := by
  rw [val_main_v39_apply, val_main_v38_apply]
  refine congrArg x8 (funext fun a => Fin.ext ?_)
  have hk := k.isLt
  have hj := j.isLt
  match a with
  | ⟨0, _⟩ => rfl
  | ⟨1, _⟩ => rfl
  | ⟨2, _⟩ => show (k.val * 32 + j.val) / 32 % 288 = k.val; omega
  | ⟨3, _⟩ => show (k.val * 32 + j.val) % 32 = j.val; omega

/-! Each bias vector, broadcast over the rows, is read at its column. -/

theorem v9_apply (x5 : (⟨S32, .f32⟩ : BufTy).Contents (Elt Ideal)) (p : Fin 200000) (j : Fin 32) :
    val_main_v9 (F := Ideal) x5 (ix2 p j) = x5 (ix1 j) := by
  rw [val_main_v9_apply, val_main_v8_apply]
  exact congrArg x5 (funext fun a => Fin.ext (by match a with | ⟨0, _⟩ => rfl))

theorem v25_apply (x7 : (⟨S32, .f32⟩ : BufTy).Contents (Elt Ideal)) (p : Fin 200000) (j : Fin 32) :
    val_main_v25 (F := Ideal) x7 (ix2 p j) = x7 (ix1 j) := by
  rw [val_main_v25_apply, val_main_v24_apply]
  exact congrArg x7 (funext fun a => Fin.ext (by match a with | ⟨0, _⟩ => rfl))

theorem v43_apply (x9 : (⟨S32, .f32⟩ : BufTy).Contents (Elt Ideal)) (p : Fin 200000) (j : Fin 32) :
    val_main_v43 (F := Ideal) x9 (ix2 p j) = x9 (ix1 j) := by
  rw [val_main_v43_apply, val_main_v42_apply]
  exact congrArg x9 (funext fun a => Fin.ext (by match a with | ⟨0, _⟩ => rfl))

/-- Two matrix products of one row with two weight matrices, added, plus a bias: the gate with its products apart. -/
theorem gate_read
    (A : (⟨S200000x288, .f32⟩ : BufTy).Contents (Elt Ideal)) (W0 W1 : (⟨S288x32, .f32⟩ : BufTy).Contents (Elt Ideal))
    (a : Fin 288 → EReal) (w0 w1 : Fin 288 → Fin 32 → EReal) (b : Fin 32 → EReal) (p : Fin 200000) (j : Fin 32) (bv : EReal)
    (hA : ∀ k, A (ix2 p k) = a k) (hW0 : ∀ k, W0 (ix2 k j) = w0 k j) (hW1 : ∀ k, W1 (ix2 k j) = w1 k j) (hB : bv = b j)
    (l0 l1 : Fin 288 → S200000x288.Idx) (r0 r1 : Fin 288 → S288x32.Idx)
    (hl0 : ∀ k, l0 k = ix2 p k) (hl1 : ∀ k, l1 k = ix2 p k) (hr0 : ∀ k, r0 k = ix2 k j) (hr1 : ∀ k, r1 k = ix2 k j) :
    FloatOps.addf (F := Ideal) (φ := .f32) (FloatOps.addf (F := Ideal) (φ := .f32) (∑ k : Fin 288, A (l0 k) * W0 (r0 k)) (∑ k : Fin 288, A (l1 k) * W1 (r1 k))) bv
      = gateTwo w0 w1 b a j := by
  unfold gateTwo
  rw [hB]
  simp only [hl0, hl1, hr0, hr1, hA, hW0, hW1]
  rfl

/-- The update gate's pre-activation. -/
theorem v10_apply (x0 : (⟨S200000x256, .f32⟩ : BufTy).Contents (Elt Ideal)) (x3 : (⟨S200000x32, .f32⟩ : BufTy).Contents (Elt Ideal)) (x4 : (⟨S2x1x288x32, .f32⟩ : BufTy).Contents (Elt Ideal)) (x5 : (⟨S32, .f32⟩ : BufTy).Contents (Elt Ideal)) (p : Fin 200000) (j : Fin 32) :
    val_main_v10 (F := Ideal) x0 x3 x4 x5 (ix2 p j)
      = gateTwo (stack x4 0) (stack x4 1) (fun j => x5 (ix1 j)) (join (rowOf x0 p) (rowOf x3 p)) j := by
  rw [val_main_v10_apply, val_main_v7_apply, val_main_v3_apply, val_main_v6_apply]
  exact gate_read _ _ _ _ _ _ _ p j _ (v0_apply x0 x3 p) (fun k => v2_apply x4 k j) (fun k => v5_apply x4 k j) (v9_apply x5 p j)
    _ _ _ _ (fun k => by idx2) (fun k => by idx2) (fun k => by idx2) (fun k => by idx2)

/-- The reset gate's pre-activation. -/
theorem v26_apply (x0 : (⟨S200000x256, .f32⟩ : BufTy).Contents (Elt Ideal)) (x3 : (⟨S200000x32, .f32⟩ : BufTy).Contents (Elt Ideal)) (x6 : (⟨S2x1x288x32, .f32⟩ : BufTy).Contents (Elt Ideal)) (x7 : (⟨S32, .f32⟩ : BufTy).Contents (Elt Ideal)) (p : Fin 200000) (j : Fin 32) :
    val_main_v26 (F := Ideal) x0 x3 x6 x7 (ix2 p j)
      = gateTwo (stack x6 0) (stack x6 1) (fun j => x7 (ix1 j)) (join (rowOf x0 p) (rowOf x3 p)) j := by
  rw [val_main_v26_apply, val_main_v23_apply, val_main_v19_apply, val_main_v22_apply]
  exact gate_read _ _ _ _ _ _ _ p j _ (v0_apply x0 x3 p) (fun k => v18_apply x6 k j) (fun k => v21_apply x6 k j) (v25_apply x7 p j)
    _ _ _ _ (fun k => by idx2) (fun k => by idx2) (fun k => by idx2) (fun k => by idx2)

/-- The update gate: the logistic function of its pre-activation, spelt 1.0 / (1.0 + exp (−z)). -/
theorem v16_apply (x0 : (⟨S200000x256, .f32⟩ : BufTy).Contents (Elt Ideal)) (x3 : (⟨S200000x32, .f32⟩ : BufTy).Contents (Elt Ideal)) (x4 : (⟨S2x1x288x32, .f32⟩ : BufTy).Contents (Elt Ideal)) (x5 : (⟨S32, .f32⟩ : BufTy).Contents (Elt Ideal)) (p : Fin 200000) (j : Fin 32) :
    val_main_v16 (F := Ideal) x0 x3 x4 x5 (ix2 p j) = Ideal.logistic (gateTwo (stack x4 0) (stack x4 1) (fun j => x5 (ix1 j)) (join (rowOf x0 p) (rowOf x3 p)) j) := by
  rw [val_main_v16_apply, val_main_v15_apply, val_main_cst_0_apply, val_main_v14_apply, val_main_v13_apply, val_main_cst_apply,
    val_main_v12_apply, val_main_v11_apply, v10_apply]
  exact Cert.LayerOps.logistic_host _

/-- The reset gate. -/
theorem v32_apply (x0 : (⟨S200000x256, .f32⟩ : BufTy).Contents (Elt Ideal)) (x3 : (⟨S200000x32, .f32⟩ : BufTy).Contents (Elt Ideal)) (x6 : (⟨S2x1x288x32, .f32⟩ : BufTy).Contents (Elt Ideal)) (x7 : (⟨S32, .f32⟩ : BufTy).Contents (Elt Ideal)) (p : Fin 200000) (j : Fin 32) :
    val_main_v32 (F := Ideal) x0 x3 x6 x7 (ix2 p j) = Ideal.logistic (gateTwo (stack x6 0) (stack x6 1) (fun j => x7 (ix1 j)) (join (rowOf x0 p) (rowOf x3 p)) j) := by
  rw [val_main_v32_apply, val_main_v31_apply, val_main_cst_2_apply, val_main_v30_apply, val_main_v29_apply, val_main_cst_1_apply,
    val_main_v28_apply, val_main_v27_apply, v26_apply]
  exact Cert.LayerOps.logistic_host _

/-- The hidden row scaled by the reset gate. -/
theorem v33_apply (x0 : (⟨S200000x256, .f32⟩ : BufTy).Contents (Elt Ideal)) (x3 : (⟨S200000x32, .f32⟩ : BufTy).Contents (Elt Ideal)) (x6 : (⟨S2x1x288x32, .f32⟩ : BufTy).Contents (Elt Ideal)) (x7 : (⟨S32, .f32⟩ : BufTy).Contents (Elt Ideal)) (p : Fin 200000) (j : Fin 32) :
    val_main_v33 (F := Ideal) x0 x3 x6 x7 (ix2 p j) = rowOf x3 p j * Ideal.logistic (gateTwo (stack x6 0) (stack x6 1) (fun j => x7 (ix1 j)) (join (rowOf x0 p) (rowOf x3 p)) j) := by
  rw [val_main_v33_apply, v32_apply]
  rfl

/-- The second joined row: the features followed by the scaled hidden values. -/
theorem v34_apply (x0 : (⟨S200000x256, .f32⟩ : BufTy).Contents (Elt Ideal)) (x3 : (⟨S200000x32, .f32⟩ : BufTy).Contents (Elt Ideal)) (x6 : (⟨S2x1x288x32, .f32⟩ : BufTy).Contents (Elt Ideal)) (x7 : (⟨S32, .f32⟩ : BufTy).Contents (Elt Ideal)) (p : Fin 200000) (k : Fin 288) :
    val_main_v34 (F := Ideal) x0 x3 x6 x7 (ix2 p k) = join (rowOf x0 p) (fun j' => rowOf x3 p j' * Ideal.logistic (gateTwo (stack x6 0) (stack x6 1) (fun j => x7 (ix1 j)) (join (rowOf x0 p) (rowOf x3 p)) j')) k := by
  unfold val_main_v34 join
  by_cases h : k.val < 256
  · rw [dif_pos h]
    exact concatenate_cols_left x0 _ _ p k ⟨k.val, h⟩ rfl
  · rw [dif_neg h]
    exact (concatenate_cols_right x0 (val_main_v33 (F := Ideal) x0 x3 x6 x7) _ p k ⟨k.val - 256, by have := k.isLt; omega⟩
      (by show k.val - 256 + 256 = k.val; omega)).trans (v33_apply x0 x3 x6 x7 p _)

/-- The candidate's pre-activation. -/
theorem v44_apply (x0 : (⟨S200000x256, .f32⟩ : BufTy).Contents (Elt Ideal)) (x3 : (⟨S200000x32, .f32⟩ : BufTy).Contents (Elt Ideal)) (x6 : (⟨S2x1x288x32, .f32⟩ : BufTy).Contents (Elt Ideal)) (x7 : (⟨S32, .f32⟩ : BufTy).Contents (Elt Ideal)) (x8 : (⟨S2x1x288x32, .f32⟩ : BufTy).Contents (Elt Ideal)) (x9 : (⟨S32, .f32⟩ : BufTy).Contents (Elt Ideal)) (p : Fin 200000) (j : Fin 32) :
    val_main_v44 (F := Ideal) x0 x3 x6 x7 x8 x9 (ix2 p j) = gateTwo (stack x8 0) (stack x8 1) (fun j => x9 (ix1 j)) (join (rowOf x0 p) fun j' => rowOf x3 p j' * Ideal.logistic (gateTwo (stack x6 0) (stack x6 1) (fun j => x7 (ix1 j)) (join (rowOf x0 p) (rowOf x3 p)) j')) j := by
  rw [val_main_v44_apply, val_main_v41_apply, val_main_v37_apply, val_main_v40_apply]
  exact gate_read _ _ _ _ _ _ _ p j _ (v34_apply x0 x3 x6 x7 p) (fun k => v36_apply x8 k j) (fun k => v39_apply x8 k j) (v43_apply x9 p j)
    _ _ _ _ (fun k => by idx2) (fun k => by idx2) (fun k => by idx2) (fun k => by idx2)

/-- The candidate row. -/
theorem v45_apply (x0 : (⟨S200000x256, .f32⟩ : BufTy).Contents (Elt Ideal)) (x3 : (⟨S200000x32, .f32⟩ : BufTy).Contents (Elt Ideal)) (x6 : (⟨S2x1x288x32, .f32⟩ : BufTy).Contents (Elt Ideal)) (x7 : (⟨S32, .f32⟩ : BufTy).Contents (Elt Ideal)) (x8 : (⟨S2x1x288x32, .f32⟩ : BufTy).Contents (Elt Ideal)) (x9 : (⟨S32, .f32⟩ : BufTy).Contents (Elt Ideal)) (p : Fin 200000) (j : Fin 32) :
    val_main_v45 (F := Ideal) x0 x3 x6 x7 x8 x9 (ix2 p j) = Ideal.tanh (gateTwo (stack x8 0) (stack x8 1) (fun j => x9 (ix1 j)) (join (rowOf x0 p) fun j' => rowOf x3 p j' * Ideal.logistic (gateTwo (stack x6 0) (stack x6 1) (fun j => x7 (ix1 j)) (join (rowOf x0 p) (rowOf x3 p)) j')) j) := by
  rw [val_main_v45_apply, v44_apply]
  rfl

/-- The new hidden row, rectified. -/
theorem v51_apply (x0 : (⟨S200000x256, .f32⟩ : BufTy).Contents (Elt Ideal)) (x3 : (⟨S200000x32, .f32⟩ : BufTy).Contents (Elt Ideal)) (x4 : (⟨S2x1x288x32, .f32⟩ : BufTy).Contents (Elt Ideal)) (x5 : (⟨S32, .f32⟩ : BufTy).Contents (Elt Ideal)) (x6 : (⟨S2x1x288x32, .f32⟩ : BufTy).Contents (Elt Ideal)) (x7 : (⟨S32, .f32⟩ : BufTy).Contents (Elt Ideal)) (x8 : (⟨S2x1x288x32, .f32⟩ : BufTy).Contents (Elt Ideal)) (x9 : (⟨S32, .f32⟩ : BufTy).Contents (Elt Ideal)) (p : Fin 200000) (j : Fin 32) :
    val_main_v51 (F := Ideal) x0 x3 x4 x5 x6 x7 x8 x9 (ix2 p j)
      = max ((fun j => Ideal.logistic (gateTwo (stack x4 0) (stack x4 1) (fun j => x5 (ix1 j)) (join (rowOf x0 p) (rowOf x3 p)) j)) j * rowOf x3 p j + (one - (fun j => Ideal.logistic (gateTwo (stack x4 0) (stack x4 1) (fun j => x5 (ix1 j)) (join (rowOf x0 p) (rowOf x3 p)) j)) j) * (fun j => Ideal.tanh (gateTwo (stack x8 0) (stack x8 1) (fun j => x9 (ix1 j)) (join (rowOf x0 p) fun j' => rowOf x3 p j' * Ideal.logistic (gateTwo (stack x6 0) (stack x6 1) (fun j => x7 (ix1 j)) (join (rowOf x0 p) (rowOf x3 p)) j')) j)) j) zero := by
  rw [val_main_v51_apply, val_main_call0_v0_apply, val_main_call0_cst_apply, val_main_v50_apply, val_main_v46_apply, val_main_v49_apply,
    val_main_v48_apply, val_main_v47_apply, val_main_cst_3_apply, v16_apply, v45_apply]
  rfl

/-- The ten scores of row `p`, as the cell spells them. -/
abbrev rowScores (x0 : (⟨S200000x256, .f32⟩ : BufTy).Contents (Elt Ideal)) (x3 : (⟨S200000x32, .f32⟩ : BufTy).Contents (Elt Ideal)) (x4 : (⟨S2x1x288x32, .f32⟩ : BufTy).Contents (Elt Ideal)) (x5 : (⟨S32, .f32⟩ : BufTy).Contents (Elt Ideal)) (x6 : (⟨S2x1x288x32, .f32⟩ : BufTy).Contents (Elt Ideal)) (x7 : (⟨S32, .f32⟩ : BufTy).Contents (Elt Ideal)) (x8 : (⟨S2x1x288x32, .f32⟩ : BufTy).Contents (Elt Ideal)) (x9 : (⟨S32, .f32⟩ : BufTy).Contents (Elt Ideal)) (x10 : (⟨S32x10, .f32⟩ : BufTy).Contents (Elt Ideal)) (x11 : (⟨S10, .f32⟩ : BufTy).Contents (Elt Ideal)) (p : Fin 200000) : Fin 10 → EReal :=
  scores (fun j => Ideal.logistic (gateTwo (stack x4 0) (stack x4 1) (fun j => x5 (ix1 j)) (join (rowOf x0 p) (rowOf x3 p)) j)) (fun j => Ideal.tanh (gateTwo (stack x8 0) (stack x8 1) (fun j => x9 (ix1 j)) (join (rowOf x0 p) fun j' => rowOf x3 p j' * Ideal.logistic (gateTwo (stack x6 0) (stack x6 1) (fun j => x7 (ix1 j)) (join (rowOf x0 p) (rowOf x3 p)) j')) j)) (rowOf x3 p) (fun j c => x10 (ix2 j c)) (fun c => x11 (ix1 c))

/-- The linear head on the rectified row. -/
theorem v55_apply (x0 : (⟨S200000x256, .f32⟩ : BufTy).Contents (Elt Ideal)) (x3 : (⟨S200000x32, .f32⟩ : BufTy).Contents (Elt Ideal)) (x4 : (⟨S2x1x288x32, .f32⟩ : BufTy).Contents (Elt Ideal)) (x5 : (⟨S32, .f32⟩ : BufTy).Contents (Elt Ideal)) (x6 : (⟨S2x1x288x32, .f32⟩ : BufTy).Contents (Elt Ideal)) (x7 : (⟨S32, .f32⟩ : BufTy).Contents (Elt Ideal)) (x8 : (⟨S2x1x288x32, .f32⟩ : BufTy).Contents (Elt Ideal)) (x9 : (⟨S32, .f32⟩ : BufTy).Contents (Elt Ideal)) (x10 : (⟨S32x10, .f32⟩ : BufTy).Contents (Elt Ideal)) (x11 : (⟨S10, .f32⟩ : BufTy).Contents (Elt Ideal)) (p : Fin 200000) (c : Fin 10) :
    val_main_v55 (F := Ideal) x0 x3 x4 x5 x6 x7 x8 x9 x10 x11 (ix2 p c) = rowScores x0 x3 x4 x5 x6 x7 x8 x9 x10 x11 p c := by
  rw [val_main_v55_apply, val_main_v52_apply, val_main_v54_apply, val_main_v53_apply]
  have hl : ∀ k : Fin 32, lidx_main_v52 (ix2 p c) k = ix2 p k := fun k => by idx2
  have hr : ∀ k : Fin 32, ridx_main_v52 (ix2 p c) k = ix2 k c := fun k => by idx2
  have hb : idx_main_v53 (idx_main_v54 (ix2 p c)) = ix1 c := funext fun a => Fin.ext (by match a with | ⟨0, _⟩ => rfl)
  simp only [hl, hr, hb, v51_apply]
  rfl

/-- The largest score of row `p`: the fold of `max` from −∞ over its ten scores. -/
theorem v56_apply (x0 : (⟨S200000x256, .f32⟩ : BufTy).Contents (Elt Ideal)) (x3 : (⟨S200000x32, .f32⟩ : BufTy).Contents (Elt Ideal)) (x4 : (⟨S2x1x288x32, .f32⟩ : BufTy).Contents (Elt Ideal)) (x5 : (⟨S32, .f32⟩ : BufTy).Contents (Elt Ideal)) (x6 : (⟨S2x1x288x32, .f32⟩ : BufTy).Contents (Elt Ideal)) (x7 : (⟨S32, .f32⟩ : BufTy).Contents (Elt Ideal)) (x8 : (⟨S2x1x288x32, .f32⟩ : BufTy).Contents (Elt Ideal)) (x9 : (⟨S32, .f32⟩ : BufTy).Contents (Elt Ideal)) (x10 : (⟨S32x10, .f32⟩ : BufTy).Contents (Elt Ideal)) (x11 : (⟨S10, .f32⟩ : BufTy).Contents (Elt Ideal)) (p : Fin 200000) :
    val_main_v56 (F := Ideal) x0 x3 x4 x5 x6 x7 x8 x9 x10 x11 (ix1 p) = (Finset.univ : Finset (Fin 10)).fold max ninf (rowScores x0 x3 x4 x5 x6 x7 x8 x9 x10 x11 p) := by
  unfold val_main_v56
  rw [Cert.LibHostRowMax.hostRowMax_apply _ _ reducesTo_S200000x10_S200000_d1 (by decide) h_S_ p]
  have hs : (fun k : Fin 10 => val_main_v55 (F := Ideal) x0 x3 x4 x5 x6 x7 x8 x9 x10 x11 (ix2 p k)) = rowScores x0 x3 x4 x5 x6 x7 x8 x9 x10 x11 p :=
    funext fun k => v55_apply x0 x3 x4 x5 x6 x7 x8 x9 x10 x11 p k
  rw [hs]
  rfl

/-- The shift of the softmax, broadcast along the row. -/
theorem v60_apply (x0 : (⟨S200000x256, .f32⟩ : BufTy).Contents (Elt Ideal)) (x3 : (⟨S200000x32, .f32⟩ : BufTy).Contents (Elt Ideal)) (x4 : (⟨S2x1x288x32, .f32⟩ : BufTy).Contents (Elt Ideal)) (x5 : (⟨S32, .f32⟩ : BufTy).Contents (Elt Ideal)) (x6 : (⟨S2x1x288x32, .f32⟩ : BufTy).Contents (Elt Ideal)) (x7 : (⟨S32, .f32⟩ : BufTy).Contents (Elt Ideal)) (x8 : (⟨S2x1x288x32, .f32⟩ : BufTy).Contents (Elt Ideal)) (x9 : (⟨S32, .f32⟩ : BufTy).Contents (Elt Ideal)) (x10 : (⟨S32x10, .f32⟩ : BufTy).Contents (Elt Ideal)) (x11 : (⟨S10, .f32⟩ : BufTy).Contents (Elt Ideal)) (p : Fin 200000) (c : Fin 10) :
    val_main_v60 (F := Ideal) x0 x3 x4 x5 x6 x7 x8 x9 x10 x11 (ix2 p c) = max ninf ((Finset.univ : Finset (Fin 10)).fold max ninf (rowScores x0 x3 x4 x5 x6 x7 x8 x9 x10 x11 p)) := by
  rw [val_main_v60_apply, val_main_v59_apply]
  have hi : idx_main_v59 (idx_main_v60 (ix2 p c)) = ix1 p := funext fun a => Fin.ext (by match a with | ⟨0, _⟩ => rfl)
  rw [hi, val_main_v58_apply, val_main_v57_apply, val_main_cst_5_apply, v56_apply]
  rfl

/-- The exponential of a shifted score. -/
theorem v62_apply (x0 : (⟨S200000x256, .f32⟩ : BufTy).Contents (Elt Ideal)) (x3 : (⟨S200000x32, .f32⟩ : BufTy).Contents (Elt Ideal)) (x4 : (⟨S2x1x288x32, .f32⟩ : BufTy).Contents (Elt Ideal)) (x5 : (⟨S32, .f32⟩ : BufTy).Contents (Elt Ideal)) (x6 : (⟨S2x1x288x32, .f32⟩ : BufTy).Contents (Elt Ideal)) (x7 : (⟨S32, .f32⟩ : BufTy).Contents (Elt Ideal)) (x8 : (⟨S2x1x288x32, .f32⟩ : BufTy).Contents (Elt Ideal)) (x9 : (⟨S32, .f32⟩ : BufTy).Contents (Elt Ideal)) (x10 : (⟨S32x10, .f32⟩ : BufTy).Contents (Elt Ideal)) (x11 : (⟨S10, .f32⟩ : BufTy).Contents (Elt Ideal)) (p : Fin 200000) (c : Fin 10) :
    val_main_v62 (F := Ideal) x0 x3 x4 x5 x6 x7 x8 x9 x10 x11 (ix2 p c) = Ideal.exp (rowScores x0 x3 x4 x5 x6 x7 x8 x9 x10 x11 p c - max ninf ((Finset.univ : Finset (Fin 10)).fold max ninf (rowScores x0 x3 x4 x5 x6 x7 x8 x9 x10 x11 p))) := by
  rw [val_main_v62_apply, val_main_v61_apply, v55_apply, v60_apply]
  rfl

/-- The sum of the ten exponentials, broadcast along the row: the float sum starts from 0.0. -/
theorem v65_apply (x0 : (⟨S200000x256, .f32⟩ : BufTy).Contents (Elt Ideal)) (x3 : (⟨S200000x32, .f32⟩ : BufTy).Contents (Elt Ideal)) (x4 : (⟨S2x1x288x32, .f32⟩ : BufTy).Contents (Elt Ideal)) (x5 : (⟨S32, .f32⟩ : BufTy).Contents (Elt Ideal)) (x6 : (⟨S2x1x288x32, .f32⟩ : BufTy).Contents (Elt Ideal)) (x7 : (⟨S32, .f32⟩ : BufTy).Contents (Elt Ideal)) (x8 : (⟨S2x1x288x32, .f32⟩ : BufTy).Contents (Elt Ideal)) (x9 : (⟨S32, .f32⟩ : BufTy).Contents (Elt Ideal)) (x10 : (⟨S32x10, .f32⟩ : BufTy).Contents (Elt Ideal)) (x11 : (⟨S10, .f32⟩ : BufTy).Contents (Elt Ideal)) (p : Fin 200000) (c : Fin 10) :
    val_main_v65 (F := Ideal) x0 x3 x4 x5 x6 x7 x8 x9 x10 x11 (ix2 p c) = ∑ e : Fin 10, Ideal.exp (rowScores x0 x3 x4 x5 x6 x7 x8 x9 x10 x11 p e - max ninf ((Finset.univ : Finset (Fin 10)).fold max ninf (rowScores x0 x3 x4 x5 x6 x7 x8 x9 x10 x11 p))) := by
  rw [val_main_v65_apply, val_main_v64_apply]
  have hi : idx_main_v64 (idx_main_v65 (ix2 p c)) = ix1 p := funext fun a => Fin.ext (by match a with | ⟨0, _⟩ => rfl)
  rw [hi, val_main_v63_apply, val_main_cst_6_apply]
  have hk : ∀ k : Fin 10, idx_main_v63 (ix1 p) k = ix2 p k := fun k => by idx2
  simp only [hk, v62_apply]
  show Ideal.ofBits .f32 0x00000000#32 + _ = _
  rw [Ideal.ofBits_zero_f32, zero_add]

/-- The reference's result at row `p`, class `c`: the softmax weight of score `c`. -/
theorem v66_apply (x0 : (⟨S200000x256, .f32⟩ : BufTy).Contents (Elt Ideal)) (x3 : (⟨S200000x32, .f32⟩ : BufTy).Contents (Elt Ideal)) (x4 : (⟨S2x1x288x32, .f32⟩ : BufTy).Contents (Elt Ideal)) (x5 : (⟨S32, .f32⟩ : BufTy).Contents (Elt Ideal)) (x6 : (⟨S2x1x288x32, .f32⟩ : BufTy).Contents (Elt Ideal)) (x7 : (⟨S32, .f32⟩ : BufTy).Contents (Elt Ideal)) (x8 : (⟨S2x1x288x32, .f32⟩ : BufTy).Contents (Elt Ideal)) (x9 : (⟨S32, .f32⟩ : BufTy).Contents (Elt Ideal)) (x10 : (⟨S32x10, .f32⟩ : BufTy).Contents (Elt Ideal)) (x11 : (⟨S10, .f32⟩ : BufTy).Contents (Elt Ideal)) (p : Fin 200000) (c : Fin 10) :
    val_main_v66 (F := Ideal) x0 x3 x4 x5 x6 x7 x8 x9 x10 x11 (ix2 p c) = softmax (rowScores x0 x3 x4 x5 x6 x7 x8 x9 x10 x11 p) c := by
  rw [val_main_v66_apply, v62_apply, v65_apply]
  rfl

/-- The reference's result array is the network with the two products of each stack taken apart. -/
theorem val_eq_netTwo (x0 : (⟨S200000x256, .f32⟩ : BufTy).Contents (Elt Ideal)) (x3 : (⟨S200000x32, .f32⟩ : BufTy).Contents (Elt Ideal)) (x4 : (⟨S2x1x288x32, .f32⟩ : BufTy).Contents (Elt Ideal)) (x5 : (⟨S32, .f32⟩ : BufTy).Contents (Elt Ideal)) (x6 : (⟨S2x1x288x32, .f32⟩ : BufTy).Contents (Elt Ideal)) (x7 : (⟨S32, .f32⟩ : BufTy).Contents (Elt Ideal)) (x8 : (⟨S2x1x288x32, .f32⟩ : BufTy).Contents (Elt Ideal)) (x9 : (⟨S32, .f32⟩ : BufTy).Contents (Elt Ideal)) (x10 : (⟨S32x10, .f32⟩ : BufTy).Contents (Elt Ideal)) (x11 : (⟨S10, .f32⟩ : BufTy).Contents (Elt Ideal)) :
    Cert.ReferenceIdeal.Read.val_main_v66 (F := Ideal) x0 x3 x4 x5 x6 x7 x8 x9 x10 x11 = Cert.Gru.netTwo x0 x3 x4 x5 x6 x7 x8 x9 x10 x11 := by
  funext i
  obtain ⟨p, c, rfl⟩ : ∃ (p : Fin 200000) (c : Fin 10), i = ix2 p c :=
    ⟨⟨(i 0).val, idx2_lt0 i⟩, ⟨(i 1).val, idx2_lt1 i⟩, eq_ix2 i⟩
  rw [v66_apply]
  rfl

end Cert.Gru.Ref

end
-- ==== Proof.Finite.lean ====
/-
  The precondition read back: every entry of five of the argument arrays is a real number.

  The precondition is one conjunction, over the eleven arrays of numbers, of "every entry `x` has `|x| < +∞`", each
  conjunct spelled as a reduction by `and`, over all axes, of the entry-by-entry comparisons.  On the extended reals
  `|x|` is `max x (−x)` and the word `0x7F800000` is `⊤`, so a conjunct says of every entry that it is neither `⊤`
  nor `⊥`: it is a real.
-/
import proofs.«142232_j45801531244822_2_alg».proof.Defs
import proofs.«142232_j45801531244822_2_alg».proof.Proof.Gen.Pre_finite_inputs
import Idealize.ShloMosaic.Lib.ReduceAll
import Idealize.ShloMosaic.Lib.ValueIdx

noncomputable section

namespace Cert.Gru.Finite

open Idealize.ShloMosaic Idealize.ShloMosaic.ValueIdx Cert.Pre_finite_inputs

/-- A shape of rank zero has one index. -/
instance : Subsingleton S_.Idx := ⟨fun a b => funext fun d => d.elim0⟩

/-- The word `0x7F800000` is `+∞`. -/
theorem top_word : Ideal.ofBits .f32 0x7F800000#32 = ⊤ := by simp [Ideal.ofBits, Ideal.ieee]

/-- An extended real whose absolute value is below `+∞` is a real. -/
theorem real_of_abs_lt (x : EReal)
    (h : Ideal.cmp .olt (max x (-x)) (Ideal.ofBits .f32 0x7F800000#32) = 1#1) : ∃ r : ℝ, x = (r : EReal) := by
  rw [top_word] at h
  have hlt : max x (-x) < ⊤ := by
    by_contra hn
    simp [Ideal.cmp, hn] at h
  rw [max_lt_iff] at hlt
  induction x using EReal.rec with
  | bot => simp at hlt
  | coe r => exact ⟨r, rfl⟩
  | top => simp at hlt

/-- One conjunct of the precondition: an array all of whose entries compare below `+∞` in absolute value has real
    entries. -/
theorem all_real {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf a) (broadcastInDim s ![] hb (constant (F := Ideal) S_ .f32 0x7F800000#32)))
          (constantI S_ 1 1#1) hr hu j = 1#1) :
    ∀ i, ∃ r : ℝ, a i = (r : EReal) := by
  intro i
  have h1 := Host.reduce_andi_all _ _ hr hu j e i
  exact real_of_abs_lt (a i) h1

/-- The precondition over its twelve operands as variables: when it is all ones, the first, fourth, fifth, seventh and
    ninth arrays have real entries. -/
theorem fn_real [Cert.Pre_finite_inputs.Facts]
    (a0 : FVec Ideal S200000x256 .f32) (a1 : IVec S2x6400000 32) (a2 : FVec Ideal S6400000 .f32)
    (a3 : FVec Ideal S200000x32 .f32) (a4 : FVec Ideal S2x1x288x32 .f32) (a5 : FVec Ideal S32 .f32)
    (a6 : FVec Ideal S2x1x288x32 .f32) (a7 : FVec Ideal S32 .f32) (a8 : FVec Ideal S2x1x288x32 .f32)
    (a9 : FVec Ideal S32 .f32) (a10 : FVec Ideal S32x10 .f32) (a11 : FVec Ideal S10 .f32)
    (h : Cert.Pre_finite_inputs.fn (F := Ideal) a0 a1 a2 a3 a4 a5 a6 a7 a8 a9 a10 a11 = (fun _ => 1#1)) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a6 i = (r : EReal)) ∧ (∀ i, ∃ r : ℝ, a8 i = (r : EReal)) := by
  -- the one entry of the rank-zero result, with the chain of operations unfolded to the nested conjunction
  have h0 := congrFun h ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨e0, _⟩, e3⟩, e4⟩, _⟩, e6⟩, _⟩, e8⟩, _⟩, _⟩, _⟩ := h0
  exact ⟨all_real a0 _ _ _ _ e0, all_real a3 _ _ _ _ e3, all_real a4 _ _ _ _ e4, all_real a6 _ _ _ _ e6,
    all_real a8 _ _ _ _ e8⟩

/-- Under the certificate's precondition the features, the hidden state and the three stacks of gate weights are
    real-valued, on every device. -/
theorem real_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg8) i = (r : EReal)) :=
  fn_real _ _ _ _ _ _ _ _ _ _ _ _ (h c)

end Cert.Gru.Finite
-- ==== Proof.lean ====
/-
  The certificate's claims for a gated recurrent cell with a classifier head.

  The kernel sums each gate's two weight matrices on the host, joins the summed update and reset matrices side by side,
  and computes one matrix product per gate inside a row-blocked region; the reference multiplies the joined row
  [x | h] with each of the two matrices and adds the two products.  On the extended reals the two agree wherever the
  features, the hidden values and the gate weights are real numbers: a real times a sum of two reals is the sum of the
  two products, and a finite sum of sums splits.  The reset gate is a logistic value, hence real, so the candidate's input
  row [x | h·R] is real as well.  Everything after the gates — the convex mix Z·h + (1 − Z)·H~, the rectifier, the head's
  product and bias, the softmax shifted by the row maximum — is the same expression on both sides.

  The kernel's result array is read off its run block by block (KernelValue.lean: 50 blocks of 4000 rows, each the
  network of Net.lean on its rows); the reference's result is its run's last stage read at an entry (RefNet.lean); the
  precondition gives the realness the one law needs (Finite.lean); Net.lean's `netSum_eq_netTwo` joins the two.
-/
import proofs.«142232_j45801531244822_2_alg».proof.Defs
import proofs.«142232_j45801531244822_2_alg».proof.Proof.Gen.Kernel
import proofs.«142232_j45801531244822_2_alg».proof.Proof.Gen.Kernel.Skeleton
import proofs.«142232_j45801531244822_2_alg».proof.Proof.Gen.Kernel.Launch
import proofs.«142232_j45801531244822_2_alg».proof.Proof.Gen.Kernel.Points
import proofs.«142232_j45801531244822_2_alg».proof.Proof.Gen.Kernel.Frame
import proofs.«142232_j45801531244822_2_alg».proof.Proof.Gen.KernelIdeal
import proofs.«142232_j45801531244822_2_alg».proof.Proof.Gen.KernelIdeal.Skeleton
import proofs.«142232_j45801531244822_2_alg».proof.Proof.Gen.KernelIdeal.Launch
import proofs.«142232_j45801531244822_2_alg».proof.Proof.Gen.KernelIdeal.Points
import proofs.«142232_j45801531244822_2_alg».proof.Proof.Gen.KernelIdeal.Frame
import proofs.«142232_j45801531244822_2_alg».proof.Proof.Gen.ReferenceIdeal
import proofs.«142232_j45801531244822_2_alg».proof.Proof.Gen.Pre_finite_inputs
import proofs.«142232_j45801531244822_2_alg».proof.Proof.Gen.KernelIdeal.Value
import proofs.«142232_j45801531244822_2_alg».proof.Proof.Gen.ReferenceIdeal.Run
import proofs.«142232_j45801531244822_2_alg».proof.Proof.Gen.ReferenceIdeal.Read
import proofs.«142232_j45801531244822_2_alg».proof.Proof.KernelValue
import proofs.«142232_j45801531244822_2_alg».proof.Proof.RefNet
import proofs.«142232_j45801531244822_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the network of the argument arrays: the kernel with each stack's matrices summed first, the
    reference with the two products taken apart — one array, the inputs being real. -/
theorem algebraic : Cert.algebraic_KernelIdeal_ReferenceIdeal := by
  intro m ρ m' ρ' hpre hagree
  refine ⟨fun c => Cert.Gru.KValue.result m c, Cert.Gru.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h3, h4, h6, h8⟩ := Cert.Gru.Finite.real_of_pre m hpre c
  obtain ⟨a0, -, -, a3, a4, a5, a6, a7, a8, a9, a10, a11⟩ := hagree c
  rw [Cert.ReferenceIdeal.Read.val_main_v66_eq, Cert.Gru.Ref.val_eq_netTwo, a0, a3, a4, a5, a6, a7, a8, a9, a10, a11]
  exact (Cert.Gru.netSum_eq_netTwo _ _ _ _ _ _ _ _ _ _ h0 h3 h4 h6 h8).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
